-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200x64x128 : Shape := ⟨4, ![32, 200, 64, 128]⟩
abbrev S128x128 : Shape := ⟨2, ![128, 128]⟩
abbrev S128 : Shape := ⟨1, ![128]⟩
abbrev S_ : Shape := ⟨0, ![]⟩

class Facts : Prop where
  bcast_S_S32x200x64x128 : S_.BroadcastsInDim S32x200x64x128 (![] : Fin 0 → Fin S32x200x64x128.rank)
  reducesTo_S32x200x64x128_S_d0_1_2_3 : S32x200x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x200x64x128 .f32) (main_arg1 : FVec F S128x128 .f32) (main_arg2 : FVec F S128 .f32) (main_arg3 : FVec F S128 .f32) (main_arg4 : FVec F S128 .f32) : IVec S_ 1 :=
  let main_v0 : FVec F S32x200x64x128 .f32 := Host.absf main_arg0
  let main_cst : FVec F S_ .f32 := constant S_ .f32 0x7F800000#32
  let main_v1 : FVec F S32x200x64x128 .f32 := broadcastInDim S32x200x64x128 ![] bcast_S_S32x200x64x128 main_cst
  let main_v2 : IVec S32x200x64x128 1 := cmpf .olt main_v0 main_v1
  let main_c : IVec S_ 1 := constantI S_ 1 1#1
  let main_v3 : IVec S_ 1 := (fun x v => Host.reduce IntOp.andi x v reducesTo_S32x200x64x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S32x200x64x128 : Shape := ⟨4, ![32, 200, 64, 128]⟩
abbrev S128x128 : Shape := ⟨2, ![128, 128]⟩
abbrev S128 : Shape := ⟨1, ![128]⟩
abbrev S6400x64x128 : Shape := ⟨3, ![6400, 64, 128]⟩
abbrev S128x64x128 : Shape := ⟨3, ![128, 64, 128]⟩
abbrev S128x64 : Shape := ⟨2, ![128, 64]⟩
abbrev S128x64x1 : Shape := ⟨3, ![128, 64, 1]⟩
abbrev S128x64x64 : Shape := ⟨3, ![128, 64, 64]⟩
abbrev S8192x128 : Shape := ⟨2, ![8192, 128]⟩
abbrev S1x128 : Shape := ⟨2, ![1, 128]⟩
abbrev S1x1x128 : Shape := ⟨3, ![1, 1, 128]⟩

abbrev nBuf : Space → Nat
  | .hbm => 10
  | .vmem => 8
  | .smem => 0
  | _ => 0

abbrev bufTy : (tb : Table) → Fin (tcTables nBuf tb) → BufTy
  | .hbm, ⟨0, _⟩ => ⟨S32x200x64x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S6400x64x128, .f32⟩
  | .hbm, ⟨6, _⟩ => ⟨S128x128, .f32⟩
  | .hbm, ⟨7, _⟩ => ⟨S128x128, .bf16⟩
  | .hbm, ⟨8, _⟩ => ⟨S6400x64x128, .f32⟩
  | .hbm, ⟨9, _⟩ => ⟨S32x200x64x128, .f32⟩
  | .local _ .vmem, ⟨0, _⟩ => ⟨S128x64x128, .f32⟩
  | .local _ .vmem, ⟨1, _⟩ => ⟨S128x64x128, .f32⟩
  | .local _ .vmem, ⟨2, _⟩ => ⟨S128x128, .bf16⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x64x128, .f32⟩
  | .local _ .vmem, ⟨7, _⟩ => ⟨S128x64x128, .f32⟩
  | _, _ => ⟨S32x200x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x200x64x128_S6400x64x128 : S32x200x64x128.ShapeCasts S6400x64x128
  transposes_S128x128_S128x128_1_0 : S128x128.Transposes [1, 0] S128x128
  bitsLt_bf16_f32 : FTy.bits .bf16 < FTy.bits .f32
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  reduces_S128x64x64_S128x64 : S128x64x64.Reduces [2] S128x64
  broadcasts_S128x64x1_S128x64x64 : S128x64x1.Broadcasts S128x64x64
  shapeCasts_S128x64x128_S8192x128 : S128x64x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S128x64x128 : S8192x128.ShapeCasts S128x64x128
  shapeCasts_S128_S1x1x128 : S128.ShapeCasts S1x1x128
  broadcasts_S1x1x128_S128x64x128 : S1x1x128.Broadcasts S128x64x128
  shapeCasts_S6400x64x128_S32x200x64x128 : S6400x64x128.ShapeCasts S32x200x64x128
  dot_S128x64x128_S128x64x128_S128x64x64_2_2_1_1_0_0_wf : DotDims.WF S128x64x128 S128x64x128 S128x64x64 [2] [2] [1] [1] [0] [0]
  dot_S8192x128_S128x128_S8192x128_1_0_0_1_n_n_wf : DotDims.WF S8192x128 S128x128 S8192x128 [1] [0] [0] [1] [] []
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S6400x64x128.size a
  hwx0_0 : ∀ i : grid0.Coords, EltTy.bits .f32 = 32 ∨ (Rect.block (s := S6400x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x128.size a ≤ S6400x64x128.size a
  hwx0_5 : ∀ i : grid0.Coords, EltTy.bits .f32 = 32 ∨ (Rect.block (s := S6400x64x128) S128x64x128.size (cc0_transform_5 i) (hinb0_5 i)).WholeWords (EltTy.packing .f32)

variable [Facts₀]

def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_v0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x200x64x128 : Shape := ⟨4, ![32, 200, 64, 128]⟩
abbrev S128x128 : Shape := ⟨2, ![128, 128]⟩
abbrev S128 : Shape := ⟨1, ![128]⟩
abbrev S_ : Shape := ⟨0, ![]⟩
abbrev S32x200x64 : Shape := ⟨3, ![32, 200, 64]⟩
abbrev S32x200x64x1 : Shape := ⟨4, ![32, 200, 64, 1]⟩
abbrev S32x200x64x64 : Shape := ⟨4, ![32, 200, 64, 64]⟩
abbrev S1x1x1x128 : Shape := ⟨4, ![1, 1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S32x200x64x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S32x200x64, .f32⟩
  | .hbm, ⟨7, _⟩ => ⟨S32x200x64x1, .f32⟩
  | .hbm, ⟨8, _⟩ => ⟨S_, .f32⟩
  | .hbm, ⟨9, _⟩ => ⟨S32x200x64x1, .f32⟩
  | .hbm, ⟨10, _⟩ => ⟨S32x200x64x1, .f32⟩
  | .hbm, ⟨11, _⟩ => ⟨S32x200x64x128, .f32⟩
  | .hbm, ⟨12, _⟩ => ⟨S32x200x64x128, .f32⟩
  | .hbm, ⟨13, _⟩ => ⟨S_, .i32⟩
  | .hbm, ⟨14, _⟩ => ⟨S_, .f32⟩
  | .hbm, ⟨15, _⟩ => ⟨S32x200x64, .f32⟩
  | .hbm, ⟨16, _⟩ => ⟨S32x200x64x1, .f32⟩
  | .hbm, ⟨17, _⟩ => ⟨S_, .f32⟩
  | .hbm, ⟨18, _⟩ => ⟨S32x200x64x1, .f32⟩
  | .hbm, ⟨19, _⟩ => ⟨S32x200x64x1, .f32⟩
  | .hbm, ⟨20, _⟩ => ⟨S32x200x64x128, .f32⟩
  | .hbm, ⟨21, _⟩ => ⟨S32x200x64x128, .f32⟩
  | .hbm, ⟨22, _⟩ => ⟨S32x200x64x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x200x64, .f32⟩
  | .hbm, ⟨28, _⟩ => ⟨S32x200x64x1, .f32⟩
  | .hbm, ⟨29, _⟩ => ⟨S32x200x64x1, .f32⟩
  | .hbm, ⟨30, _⟩ => ⟨S32x200x64x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S32x200x64x1, .f32⟩
  | .hbm, ⟨36, _⟩ => ⟨S32x200x64x1, .f32⟩
  | .hbm, ⟨37, _⟩ => ⟨S32x200x64x1, .f32⟩
  | .hbm, ⟨38, _⟩ => ⟨S_, .f32⟩
  | .hbm, ⟨39, _⟩ => ⟨S32x200x64x1, .f32⟩
  | .hbm, ⟨40, _⟩ => ⟨S32x200x64x1, .f32⟩
  | .hbm, ⟨41, _⟩ => ⟨S32x200x64x128, .f32⟩
  | .hbm, ⟨42, _⟩ => ⟨S32x200x64x128, .f32⟩
  | .hbm, ⟨43, _⟩ => ⟨S32x200x64x64, .f32⟩
  | .hbm, ⟨44, _⟩ => ⟨S_, .f32⟩
  | .hbm, ⟨45, _⟩ => ⟨S32x200x64x64, .f32⟩
  | .hbm, ⟨46, _⟩ => ⟨S32x200x64x64, .f32⟩
  | .hbm, ⟨47, _⟩ => ⟨S_, .f32⟩
  | .hbm, ⟨48, _⟩ => ⟨S32x200x64, .f32⟩
  | .hbm, ⟨49, _⟩ => ⟨S_, .f32⟩
  | .hbm, ⟨50, _⟩ => ⟨S32x200x64, .f32⟩
  | .hbm, ⟨51, _⟩ => ⟨S32x200x64, .f32⟩
  | .hbm, ⟨52, _⟩ => ⟨S32x200x64x1, .f32⟩
  | .hbm, ⟨53, _⟩ => ⟨S32x200x64x64, .f32⟩
  | .hbm, ⟨54, _⟩ => ⟨S32x200x64x64, .f32⟩
  | .hbm, ⟨55, _⟩ => ⟨S32x200x64x64, .f32⟩
  | .hbm, ⟨56, _⟩ => ⟨S_, .f32⟩
  | .hbm, ⟨57, _⟩ => ⟨S32x200x64, .f32⟩
  | .hbm, ⟨58, _⟩ => ⟨S32x200x64x1, .f32⟩
  | .hbm, ⟨59, _⟩ => ⟨S32x200x64x64, .f32⟩
  | .hbm, ⟨60, _⟩ => ⟨S32x200x64x64, .f32⟩
  | .hbm, ⟨61, _⟩ => ⟨S32x200x64x128, .f32⟩
  | .hbm, ⟨62, _⟩ => ⟨S1x1x1x128, .f32⟩
  | .hbm, ⟨63, _⟩ => ⟨S32x200x64x128, .f32⟩
  | .hbm, ⟨64, _⟩ => ⟨S32x200x64x128, .f32⟩
  | .hbm, ⟨65, _⟩ => ⟨S32x200x64x128, .f32⟩
  | .hbm, ⟨66, _⟩ => ⟨S_, .f32⟩
  | .hbm, ⟨67, _⟩ => ⟨S32x200x64, .f32⟩
  | .hbm, ⟨68, _⟩ => ⟨S32x200x64x1, .f32⟩
  | .hbm, ⟨69, _⟩ => ⟨S_, .f32⟩
  | .hbm, ⟨70, _⟩ => ⟨S32x200x64x1, .f32⟩
  | .hbm, ⟨71, _⟩ => ⟨S32x200x64x1, .f32⟩
  | .hbm, ⟨72, _⟩ => ⟨S_, .i32⟩
  | .hbm, ⟨73, _⟩ => ⟨S_, .f32⟩
  | .hbm, ⟨74, _⟩ => ⟨S32x200x64, .f32⟩
  | .hbm, ⟨75, _⟩ => ⟨S32x200x64x1, .f32⟩
  | .hbm, ⟨76, _⟩ => ⟨S_, .f32⟩
  | .hbm, ⟨77, _⟩ => ⟨S32x200x64x1, .f32⟩
  | .hbm, ⟨78, _⟩ => ⟨S32x200x64x1, .f32⟩
  | .hbm, ⟨79, _⟩ => ⟨S32x200x64x128, .f32⟩
  | .hbm, ⟨80, _⟩ => ⟨S32x200x64x128, .f32⟩
  | .hbm, ⟨81, _⟩ => ⟨S32x200x64x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S32x200x64, .f32⟩
  | .hbm, ⟨87, _⟩ => ⟨S32x200x64x1, .f32⟩
  | .hbm, ⟨88, _⟩ => ⟨S32x200x64x1, .f32⟩
  | .hbm, ⟨89, _⟩ => ⟨S32x200x64x1, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S32x200x64x1, .f32⟩
  | .hbm, ⟨95, _⟩ => ⟨S32x200x64x1, .f32⟩
  | .hbm, ⟨96, _⟩ => ⟨S32x200x64x128, .f32⟩
  | .hbm, ⟨97, _⟩ => ⟨S32x200x64x128, .f32⟩
  | .hbm, ⟨98, _⟩ => ⟨S_, .f32⟩
  | .hbm, ⟨99, _⟩ => ⟨S32x200x64x1, .f32⟩
  | .hbm, ⟨100, _⟩ => ⟨S32x200x64x1, .f32⟩
  | .hbm, ⟨101, _⟩ => ⟨S32x200x64x1, .f32⟩
  | .hbm, ⟨102, _⟩ => ⟨S32x200x64x128, .f32⟩
  | .hbm, ⟨103, _⟩ => ⟨S32x200x64x128, .f32⟩
  | .hbm, ⟨104, _⟩ => ⟨S1x1x1x128, .f32⟩
  | .hbm, ⟨105, _⟩ => ⟨S32x200x64x128, .f32⟩
  | .hbm, ⟨106, _⟩ => ⟨S32x200x64x128, .f32⟩
  | .hbm, ⟨107, _⟩ => ⟨S1x1x1x128, .f32⟩
  | .hbm, ⟨108, _⟩ => ⟨S32x200x64x128, .f32⟩
  | .hbm, ⟨109, _⟩ => ⟨S32x200x64x128, .f32⟩
  | .hbm, ⟨110, _⟩ => ⟨S_, .f32⟩
  | .hbm, ⟨111, _⟩ => ⟨S32x200x64x128, .f32⟩
  | .hbm, ⟨112, _⟩ => ⟨S32x200x64x128, .f32⟩
  | _, _ => ⟨S32x200x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_cst_4 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_v33 : Ref sig .tc := ⟨.hbm, 71, rfl⟩
abbrev main_c_8 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_cst_3 : Ref sig .tc := ⟨.hbm, 90, rfl⟩
abbrev main_call1_v13 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_9 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call2_cst : Ref sig .tc := ⟨.hbm, 110, rfl⟩
abbrev main_call2_v0 : Ref sig .tc := ⟨.hbm, 111, rfl⟩
abbrev main_v48 : Ref sig .tc := ⟨.hbm, 112, rfl⟩

abbrev nD : Nat := 1
abbrev τ : Topo := Topo.v7x

variable {F : FTy → Type} [FloatOps F]

class Facts₀ : Prop where
  reducesTo_S32x200x64x128_S32x200x64_d3 : S32x200x64x128.ReducesTo [3] S32x200x64
  h_S_ : 0 < S_.numel
  bcast_S32x200x64_S32x200x64x1_0_1_2 : S32x200x64.BroadcastsInDim S32x200x64x1 (![0, 1, 2] : Fin 3 → Fin S32x200x64x1.rank)
  bcast_S_S32x200x64x1 : S_.BroadcastsInDim S32x200x64x1 (![] : Fin 0 → Fin S32x200x64x1.rank)
  bcast_S32x200x64x1_S32x200x64x128_0_1_2_3 : S32x200x64x1.BroadcastsInDim S32x200x64x128 (![0, 1, 2, 3] : Fin 4 → Fin S32x200x64x128.rank)
  bcast_S_S32x200x64x64 : S_.BroadcastsInDim S32x200x64x64 (![] : Fin 0 → Fin S32x200x64x64.rank)
  reducesTo_S32x200x64x64_S32x200x64_d3 : S32x200x64x64.ReducesTo [3] S32x200x64
  bcast_S_S32x200x64 : S_.BroadcastsInDim S32x200x64 (![] : Fin 0 → Fin S32x200x64.rank)
  bcast_S32x200x64x1_S32x200x64x64_0_1_2_3 : S32x200x64x1.BroadcastsInDim S32x200x64x64 (![0, 1, 2, 3] : Fin 4 → Fin S32x200x64x64.rank)
  bcast_S128_S1x1x1x128_3 : S128.BroadcastsInDim S1x1x1x128 (![3] : Fin 1 → Fin S1x1x1x128.rank)
  bcast_S1x1x1x128_S32x200x64x128_0_1_2_3 : S1x1x1x128.BroadcastsInDim S32x200x64x128 (![0, 1, 2, 3] : Fin 4 → Fin S32x200x64x128.rank)
  bcast_S_S32x200x64x128 : S_.BroadcastsInDim S32x200x64x128 (![] : Fin 0 → Fin S32x200x64x128.rank)
  dot_S32x200x64x128_S32x200x64x128_S32x200x64x64_3_3_2_2_01_01_wf : DotDims.WF S32x200x64x128 S32x200x64x128 S32x200x64x64 [3] [3] [2] [2] [0, 1] [0, 1]
  dot_S32x200x64x128_S128x128_S32x200x64x128_3_1_012_0_n_n_wf : DotDims.WF S32x200x64x128 S128x128 S32x200x64x128 [3] [1] [0, 1, 2] [0] [] []
  dot_S32x200x64x64_S32x200x64x128_S32x200x64x128_3_2_2_3_01_01_wf : DotDims.WF S32x200x64x64 S32x200x64x128 S32x200x64x128 [3] [2] [2] [3] [0, 1] [0, 1]

variable [Facts₀]

def dot_S32x200x64x128_S32x200x64x128_S32x200x64x64_3_3_2_2_01_01 : DotDims S32x200x64x128 S32x200x64x128 S32x200x64x64 where
  lhsContracting := [3]
  rhsContracting := [3]
  lhsNonContracting := [2]
  rhsNonContracting := [2]
  lhsBatch := [0, 1]
  rhsBatch := [0, 1]
  wf := dot_S32x200x64x128_S32x200x64x128_S32x200x64x64_3_3_2_2_01_01_wf
def dot_S32x200x64x128_S128x128_S32x200x64x128_3_1_012_0_n_n : DotDims S32x200x64x128 S128x128 S32x200x64x128 where
  lhsContracting := [3]
  rhsContracting := [1]
  lhsNonContracting := [0, 1, 2]
  rhsNonContracting := [0]
  lhsBatch := []
  rhsBatch := []
  wf := dot_S32x200x64x128_S128x128_S32x200x64x128_3_1_012_0_n_n_wf
def dot_S32x200x64x64_S32x200x64x128_S32x200x64x128_3_2_2_3_01_01 : DotDims S32x200x64x64 S32x200x64x128 S32x200x64x128 where
  lhsContracting := [3]
  rhsContracting := [2]
  lhsNonContracting := [2]
  rhsNonContracting := [3]
  lhsBatch := [0, 1]
  rhsBatch := [0, 1]
  wf := dot_S32x200x64x64_S32x200x64x128_S32x200x64x128_3_2_2_3_01_01_wf

class Facts : Prop extends Facts₀ where

variable [Facts]
-- ==== Proof.Window.lean ====
/-
  One window of the layer, as a function on the extended reals.

  A window is 64 nodes with 128 features each, `x i f`.  Both programs compute, window by window and
  independently of every other window:
    the feature mean of each node, the centred features, their unbiased variance (divisor 127), the
    centred features divided by (standard deviation + ε₁);
    the 64 × 64 correlation of the normalised nodes, divided by 128, and its row-wise softmax
    (subtract the row maximum, exponentiate, divide by the row sum);
    the linear image of every node, `∑ f, x j f · W o f + b o`;
    the softmax-weighted sum of the linear images over the nodes;
    a layer normalisation of each aggregated node over its 128 outputs (biased variance, ε₂, scale
    `g`, shift `be`), and the positive part.
  Every literal is kept as the extended real its bit pattern denotes; no law of arithmetic is used, so
  nothing here depends on the values being finite.
-/
import Idealize.ShloMosaic.PureOps.Ideal

noncomputable section

namespace Cert.Window

open Idealize.ShloMosaic

/-- 128, the number of features (and of outputs). -/
def c128 : EReal := Ideal.ofBits .f32 0x43000000#32
/-- 127, the divisor of the unbiased variance. -/
def c127 : EReal := Ideal.ofBits .f32 0x42FE0000#32
/-- ε₁, added to the standard deviation. -/
def epsStd : EReal := Ideal.ofBits .f32 0x358637BD#32
/-- ε₂, added to the variance of the layer normalisation. -/
def epsLn : EReal := Ideal.ofBits .f32 0x3727C5AC#32
/-- -∞, from which a row maximum starts. -/
def negInf : EReal := Ideal.ofBits .f32 0xFF800000#32

variable (x : Fin 64 → Fin 128 → EReal) (W : Fin 128 → Fin 128 → EReal) (b g be : Fin 128 → EReal)

/-- The mean of node `i`'s features. -/
def mean (i : Fin 64) : EReal := Ideal.div (∑ f : Fin 128, x i f) c128
/-- Node `i`'s features, centred. -/
def cen (i : Fin 64) (f : Fin 128) : EReal := x i f - mean x i
/-- The unbiased variance of node `i`'s features. -/
def var1 (i : Fin 64) : EReal := Ideal.div (∑ f : Fin 128, cen x i f * cen x i f) c127
/-- Standard deviation plus ε₁. -/
def den (i : Fin 64) : EReal := Ideal.sqrt (var1 x i) + epsStd
/-- The normalised features. -/
def xn (i : Fin 64) (f : Fin 128) : EReal := Ideal.div (cen x i f) (den x i)
/-- The correlation of nodes `i` and `j`. -/
def corr (i j : Fin 64) : EReal := Ideal.div (∑ f : Fin 128, xn x i f * xn x j f) c128
/-- The maximum of row `i` of the correlation, started from -∞. -/
def rmax (i : Fin 64) : EReal := (Finset.univ : Finset (Fin 64)).fold max negInf (fun j => corr x i j)
/-- The exponentials of the softmax. -/
def ex (i j : Fin 64) : EReal := Ideal.exp (corr x i j - rmax x i)
/-- The softmax weights. -/
def wt (i j : Fin 64) : EReal := Ideal.div (ex x i j) (∑ j' : Fin 64, ex x i j')
/-- The linear image of node `j`. -/
def lin (j : Fin 64) (o : Fin 128) : EReal := (∑ f : Fin 128, x j f * W o f) + b o
/-- The weighted sum of the linear images. -/
def agg (i : Fin 64) (o : Fin 128) : EReal := ∑ j : Fin 64, wt x i j * lin x W b j o
/-- The mean of an aggregated node over its outputs. -/
def mu (i : Fin 64) : EReal := Ideal.div (∑ o : Fin 128, agg x W b i o) c128
/-- The aggregated node, centred. -/
def dev (i : Fin 64) (o : Fin 128) : EReal := agg x W b i o - mu x W b i
/-- Its biased variance. -/
def var2 (i : Fin 64) : EReal := Ideal.div (∑ o : Fin 128, dev x W b i o * dev x W b i o) c128
/-- The window's result: layer normalisation, scale, shift, positive part. -/
def out (i : Fin 64) (o : Fin 128) : EReal :=
  max (dev x W b i o * Ideal.rsqrt (var2 x W b i + epsLn) * g o + be o) 0

end Cert.Window

end
-- ==== Proof.KerValueA.lean ====
/-
  The arrays the region finds when it is entered, read at an index.

  Before the region the program re-lays the input [32, 200, 64, 128] as 6400 windows [6400, 64, 128]
  (window `B·200 + T` is window `(B, T)`: both are row-major) and transposes the weight matrix (its
  change of float format is the identity on the extended reals); the bias, scale and shift vectors reach
  the region as launched.
-/
import proofs.«115721_j65403761983862_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.KerValue

open Cert.KernelIdeal Cert.KernelIdeal.Gen

variable (m : (ℓ : Loc nD τ sig) → Buf (Elt Ideal) ℓ)

/-- The flat window number of window `T` of batch `B`. -/
def flat (B : Fin 32) (T : Fin 200) : Fin 6400 := ⟨B.val * 200 + T.val, by have := B.isLt; have := T.isLt; omega⟩

/-- Window `p` of block `t`. -/
def inBlock (t : Fin 50) (p : Fin 128) : Fin 6400 := ⟨t.val * 128 + p.val, by have := t.isLt; have := p.isLt; omega⟩

/-- When the region is entered the first window's array is the input re-laid as 6400 windows. -/
theorem V_v0 (c : Dev nD) : (V m c main_v0 : S6400x64x128.Idx → EReal)
    = shapeCast S6400x64x128 (m ((c.tc : Thread nD τ).loc main_arg0) : S32x200x64x128.Idx → EReal) shapeCasts_S32x200x64x128_S6400x64x128 := by
  show StableHlo.after hostOps0 (fun b => m (c, b)) (Proc.devRef .tc main_v0) = _
  after_results
  rfl

/-- and the second window's array is the weight matrix transposed (the change of format is the identity). -/
theorem V_v2 (c : Dev nD) : (V m c main_v2 : S128x128.Idx → EReal)
    = transpose S128x128 [1, 0] (m ((c.tc : Thread nD τ).loc main_arg1) : S128x128.Idx → EReal) transposes_S128x128_S128x128_1_0 := by
  show StableHlo.after hostOps0 (fun b => m (c, b)) (Proc.devRef .tc main_v2) = _
  after_results
  rfl

/-- Window `B·200 + T` of the re-laid input is window `(B, T)` of the input. -/
theorem V_v0_apply (c : Dev nD) (B : Fin 32) (T : Fin 200) (i : Fin 64) (f : Fin 128) :
    (V m c main_v0 : S6400x64x128.Idx → EReal) (ix3 (flat B T) i f)
      = (m ((c.tc : Thread nD τ).loc main_arg0) : S32x200x64x128.Idx → EReal) (ix4 B T i f) := by
  rw [V_v0]
  refine shapeCast_apply _ _ _ _ ?_
  show (S32x200x64x128.rowMajor (ix4 B T i f)).val = (S6400x64x128.rowMajor (ix3 (flat B T) i f)).val
  rw [Shape.rowMajor_val_four, Shape.rowMajor_val_three]
  rfl

/-- Entry `(f, o)` of the transposed weights is entry `(o, f)` of the weights. -/
theorem V_v2_apply (c : Dev nD) (f o : Fin 128) :
    (V m c main_v2 : S128x128.Idx → EReal) (ix2 f o)
      = (m ((c.tc : Thread nD τ).loc main_arg1) : S128x128.Idx → EReal) (ix2 o f) := by
  rw [V_v2]
  refine transpose_apply _ _ _ _ _ ?_
  intro b
  match b with
  | ⟨0, _⟩ => rfl
  | ⟨1, _⟩ => rfl

end Cert.KernelIdeal.KerValue

end
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.KerPayOps.lean ====
/-
  The kernel's non-pointwise operations read at an index given by its coordinates, on the extended reals,
  at the kernel's own shapes: a block of 128 windows of 64 nodes with 128 features.

  * A sum or a maximum over the last axis of a [128, 64, n] array, at (p, i), runs over the n entries
    (p, i, ·).
  * A [128, 64] array given a unit last axis, and a [128, 64, 1] column spread over 128 or 64 entries,
    keep the coordinates (p, i).
  * The batched product [128, 64, 128] × [128, 64, 128] → [128, 64, 64] contracting the last axes, at
    (p, i, j), is the sum over f of a (p, i, f) · b (p, j, f); the batched product
    [128, 64, 64] × [128, 64, 128] → [128, 64, 128], at (p, i, o), is the sum over j of w (p, i, j) · h (p, j, o).
  * Flattening the windows and nodes into 8192 rows and back keeps row p · 64 + i for (p, i).
  * A vector of 128 entries laid as one row and spread over 8192 rows, or laid under two unit axes and
    spread over the block, reads its entry at the last coordinate.
-/
import proofs.«115721_j65403761983862_2_alg».proof.Proof.Gen.KernelIdeal.Skeleton
import proofs.«115721_j65403761983862_2_alg».proof.Proof.LibRank3Layout
import proofs.«115721_j65403761983862_2_alg».proof.Proof.LibMidAxisLayout
import proofs.«115721_j65403761983862_2_alg».proof.Proof.LibPlainMatmul
import Idealize.ShloMosaic.Lib.ValueIdx
import Idealize.ShloMosaic.Lib.ValueLayout
import Idealize.ShloMosaic.PureOps.Ideal.Laws

noncomputable section

open scoped BigOperators

namespace Cert.KernelIdeal.KerPay

open Cert.KernelIdeal Cert.KernelIdeal.Gen Idealize.ShloMosaic Idealize.ShloMosaic.ValueIdx

/-! ## Reductions over the last axis

Each reduction is stated for any axis list equal to the last axis alone. -/

/-- The index (p, i) with the coordinate f put back on the last axis of a [128, 64, 128] array. -/
theorem lift128 (h : S128x64x128.Reduces [2] S128x64) (p : Fin 128) (i : Fin 64) (f : Fin (S128x64x128.size 2)) :
    h.lift (ix2 p i) f = ix3 p i (⟨f.val, f.isLt⟩ : Fin 128) := by
  funext a; apply Fin.ext
  match a with
  | ⟨0, _⟩ => rfl
  | ⟨1, _⟩ => rfl
  | ⟨2, _⟩ => rfl

/-- The same for a [128, 64, 64] array. -/
theorem lift64 (h : S128x64x64.Reduces [2] S128x64) (p : Fin 128) (i : Fin 64) (j : Fin (S128x64x64.size 2)) :
    h.lift (ix2 p i) j = ix3 p i (⟨j.val, j.isLt⟩ : Fin 64) := by
  funext a; apply Fin.ext
  match a with
  | ⟨0, _⟩ => rfl
  | ⟨1, _⟩ => rfl
  | ⟨2, _⟩ => rfl

/-- The sum over the 128 features of node i of window p. -/
theorem sum128_apply (v : FVec Ideal S128x64x128 .f32) (ax : List (Fin S128x64x128.rank))
    (h : S128x64x128.Reduces ax S128x64) (hφ : FKind.Formats .f32)
    (hacc : (0x00000000#32 : BitVec 32) = 0x00000000#32) (p : Fin 128) (i : Fin 64) (hax : ax = [2]) :
    multiReduction .add ax S128x64 v 0x00000000#32 h hφ hacc (ix2 p i) = ∑ f : Fin 128, v (ix3 p i f) := by
  subst hax
  refine (Ideal.multiReduction_add_single v 0x00000000#32 h hφ hacc (ix2 p i)).trans ?_
  exact Finset.sum_congr rfl fun f _ => congrArg v (lift128 h p i f)

/-- The sum over the 64 entries of row i of window p. -/
theorem sum64_apply (v : FVec Ideal S128x64x64 .f32) (ax : List (Fin S128x64x64.rank))
    (h : S128x64x64.Reduces ax S128x64) (hφ : FKind.Formats .f32)
    (hacc : (0x00000000#32 : BitVec 32) = 0x00000000#32) (p : Fin 128) (i : Fin 64) (hax : ax = [2]) :
    multiReduction .add ax S128x64 v 0x00000000#32 h hφ hacc (ix2 p i) = ∑ j : Fin 64, v (ix3 p i j) := by
  subst hax
  refine (Ideal.multiReduction_add_single v 0x00000000#32 h hφ hacc (ix2 p i)).trans ?_
  exact Finset.sum_congr rfl fun j _ => congrArg v (lift64 h p i j)

/-- The maximum, started from -∞, over the 64 entries of row i of window p. -/
theorem max64_apply (v : FVec Ideal S128x64x64 .f32) (ax : List (Fin S128x64x64.rank))
    (h : S128x64x64.Reduces ax S128x64) (hφ : FKind.Formats .f32)
    (hacc : (0xFF800000#32 : BitVec 32) = 0xFF800000#32) (p : Fin 128) (i : Fin 64) (hax : ax = [2]) :
    multiReduction .maximumf ax S128x64 v 0xFF800000#32 h hφ hacc (ix2 p i)
      = (Finset.univ : Finset (Fin 64)).fold max (Ideal.ofBits .f32 0xFF800000#32) (fun j => v (ix3 p i j)) := by
  subst hax
  refine (Ideal.multiReduction_maximumf_single v 0xFF800000#32 h hφ hacc (ix2 p i)).trans ?_
  refine congrArg (fun g => (Finset.univ : Finset (Fin 64)).fold max (Ideal.ofBits .f32 0xFF800000#32) g) ?_
  funext j
  exact congrArg v (lift64 h p i j)

/-! ## The unit last axis -/

/-- A [128, 64] array given a unit last axis keeps its entry at (p, i). -/
theorem keep_apply (v : FVec Ideal S128x64 .f32) (p : Fin 128) (i : Fin 64) (u : Fin 1) :
    shapeCast S128x64x1 v shapeCasts_S128x64_S128x64x1 (ix3 p i u) = v (ix2 p i) :=
  Cert.LibRank3Layout.shapeCast_ab_ab1_apply v shapeCasts_S128x64_S128x64x1 p i u

/-- A column spread over the 128 features reads the column at (p, i). -/
theorem wide128_apply (c : FVec Ideal S128x64x1 .f32) (p : Fin 128) (i : Fin 64) (f : Fin 128) :
    broadcastTo S128x64x128 c broadcasts_S128x64x1_S128x64x128 (ix3 p i f) = c (ix3 p i (0 : Fin 1)) :=
  Cert.LibRank3Layout.broadcastTo_ab1_abc_apply c broadcasts_S128x64x1_S128x64x128 p i f

/-- A column spread over the 64 nodes reads the column at (p, i). -/
theorem wide64_apply (c : FVec Ideal S128x64x1 .f32) (p : Fin 128) (i : Fin 64) (j : Fin 64) :
    broadcastTo S128x64x64 c broadcasts_S128x64x1_S128x64x64 (ix3 p i j) = c (ix3 p i (0 : Fin 1)) :=
  Cert.LibRank3Layout.broadcastTo_ab1_abc_apply c broadcasts_S128x64x1_S128x64x64 p i j

end Cert.KernelIdeal.KerPay

end
-- ==== Proof.KerPayMat.lean ====
/-
  The kernel's two batched matrix products on the extended reals, accumulated into the zero array, read at an
  index given by its coordinates.

  * [128, 64, 128] × [128, 64, 128] → [128, 64, 64], contracting the last axis of both operands and batching
    over the first: the entry (p, i, j) is the sum over the 128 features f of a (p, i, f) · b (p, j, f).
  * [128, 64, 64] × [128, 64, 128] → [128, 64, 128], contracting the last axis of the left operand with the
    middle axis of the right one and batching over the first: the entry (p, i, o) is the sum over the 64
    nodes j of w (p, i, j) · h (p, j, o).

  The library states a product at an output index as a sum over the contraction shape's index set; with one
  contracted axis that set is one coordinate, and the operands' indices have the batch and free coordinates
  of the output index and the contraction coordinate on the contracted axis.
-/
import proofs.«115721_j65403761983862_2_alg».proof.Proof.Gen.KernelIdeal.Skeleton
import Idealize.ShloMosaic.Lib.ValueIdx
import Idealize.ShloMosaic.PureOps.Ideal.Laws

noncomputable section

open scoped BigOperators

namespace Cert.KernelIdeal.KerPay

open Cert.KernelIdeal Cert.KernelIdeal.Gen Idealize.ShloMosaic Idealize.ShloMosaic.ValueIdx

/-- The dimension numbers of the correlation product. -/
abbrev dCorr : DotDims S128x64x128 S128x64x128 S128x64x64 := dot_S128x64x128_S128x64x128_S128x64x64_2_2_1_1_0_0
/-- The dimension numbers of the aggregation product. -/
abbrev dAgg : DotDims S128x64x64 S128x64x128 S128x64x128 := dot_S128x64x64_S128x64x128_S128x64x128_2_1_1_2_0_0

/-- The left operand of the correlation product at output (p, i, j) and feature f is read at (p, i, f). -/
theorem corr_lhsIdx (p : Fin 128) (i j : Fin 64) (f : Fin 128) :
    dCorr.lhsIdx (ix3 p i j) ((contrEquiv1 dCorr 128 rfl rfl).symm f) = ix3 p i f :=
  funext fun a => Fin.ext (by
    match a with
    | ⟨0, _⟩ => rfl
    | ⟨1, _⟩ => rfl
    | ⟨2, _⟩ =>
      exact (dCorr.lhsIdx_val_of_single rfl (ix3 p i j) _).trans (contrEquiv1_symm_val dCorr 128 rfl rfl f))

/-- The right operand there is read at (p, j, f). -/
theorem corr_rhsIdx (p : Fin 128) (i j : Fin 64) (f : Fin 128) :
    dCorr.rhsIdx (ix3 p i j) ((contrEquiv1 dCorr 128 rfl rfl).symm f) = ix3 p j f :=
  funext fun a => Fin.ext (by
    match a with
    | ⟨0, _⟩ => rfl
    | ⟨1, _⟩ => rfl
    | ⟨2, _⟩ =>
      exact (dCorr.rhsIdx_val_of_single rfl (ix3 p i j) _).trans (contrEquiv1_symm_val dCorr 128 rfl rfl f))

/-- The correlation product into the zero accumulator at (p, i, j): the sum over the features. -/
theorem corrMatmul_apply (a b : FVec Ideal S128x64x128 .f32) (p : Fin 128) (i j : Fin 64) :
    matmul dot_S128x64x128_S128x64x128_S128x64x64_2_2_1_1_0_0 none a b (constant S128x64x64 .f32 0x00000000#32) (ix3 p i j)
      = ∑ f : Fin 128, a (ix3 p i f) * b (ix3 p j f) := by
  refine (Ideal.matmul_constant_zero_apply dCorr none a b (ix3 p i j)).trans ?_
  rw [← Equiv.sum_comp (contrEquiv1 dCorr 128 rfl rfl).symm]
  refine Finset.sum_congr rfl fun f _ => ?_
  rw [corr_lhsIdx, corr_rhsIdx]

/-- The left operand of the aggregation product at output (p, i, o) and node j is read at (p, i, j). -/
theorem agg_lhsIdx (p : Fin 128) (i : Fin 64) (o : Fin 128) (j : Fin 64) :
    dAgg.lhsIdx (ix3 p i o) ((contrEquiv1 dAgg 64 rfl rfl).symm j) = ix3 p i j :=
  funext fun a => Fin.ext (by
    match a with
    | ⟨0, _⟩ => rfl
    | ⟨1, _⟩ => rfl
    | ⟨2, _⟩ =>
      exact (dAgg.lhsIdx_val_of_single rfl (ix3 p i o) _).trans (contrEquiv1_symm_val dAgg 64 rfl rfl j))

/-- The right operand there is read at (p, j, o). -/
theorem agg_rhsIdx (p : Fin 128) (i : Fin 64) (o : Fin 128) (j : Fin 64) :
    dAgg.rhsIdx (ix3 p i o) ((contrEquiv1 dAgg 64 rfl rfl).symm j) = ix3 p j o :=
  funext fun a => Fin.ext (by
    match a with
    | ⟨0, _⟩ => rfl
    | ⟨1, _⟩ =>
      exact (dAgg.rhsIdx_val_of_single rfl (ix3 p i o) _).trans (contrEquiv1_symm_val dAgg 64 rfl rfl j)
    | ⟨2, _⟩ => rfl)

/-- The aggregation product into the zero accumulator at (p, i, o): the sum over the nodes. -/
theorem aggMatmul_apply (w : FVec Ideal S128x64x64 .bf16) (h : FVec Ideal S128x64x128 .bf16)
    (p : Fin 128) (i : Fin 64) (o : Fin 128) :
    matmul dot_S128x64x64_S128x64x128_S128x64x128_2_1_1_2_0_0 none w h (constant S128x64x128 .f32 0x00000000#32) (ix3 p i o)
      = ∑ j : Fin 64, w (ix3 p i j) * h (ix3 p j o) := by
  refine (Ideal.matmul_constant_zero_apply dAgg none w h (ix3 p i o)).trans ?_
  rw [← Equiv.sum_comp (contrEquiv1 dAgg 64 rfl rfl).symm]
  refine Finset.sum_congr rfl fun j _ => ?_
  rw [agg_lhsIdx, agg_rhsIdx]

end Cert.KernelIdeal.KerPay

end
-- ==== Proof.KerPayLin.lean ====
/-
  The linear image of every node of the block, read at an index: at window p, node j and output o it is
  the sum over the 128 features f of x (p, j, f) · Wt (f, o), plus the bias b o.

  The kernel flattens the 128 windows of 64 nodes into 8192 rows, multiplies the [8192, 128] array by the
  [128, 128] matrix into the zero accumulator, adds the bias laid as one row and spread over the rows, and
  splits the rows back into windows and nodes.  Row p · 64 + j of the flat array is node j of window p, in
  both directions; the format changes are the identity on the extended reals.
-/
import proofs.«115721_j65403761983862_2_alg».proof.Proof.Gen.KernelIdeal.Skeleton
import proofs.«115721_j65403761983862_2_alg».proof.Proof.Window
import proofs.«115721_j65403761983862_2_alg».proof.Proof.LibMidAxisLayout
import proofs.«115721_j65403761983862_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerPay

open Cert.KernelIdeal Cert.KernelIdeal.Gen Idealize.ShloMosaic Idealize.ShloMosaic.ValueIdx

/-- The flat row of node j of window p. -/
def row (p : Fin 128) (j : Fin 64) : Fin 8192 := ⟨p.val * 64 + j.val, by have := p.isLt; have := j.isLt; omega⟩

/-- The block flattened to 8192 rows reads, at row p · 64 + j, node j of window p. -/
theorem flat_apply (v : FVec Ideal S128x64x128 .f32) (p : Fin 128) (j : Fin 64) (f : Fin 128) :
    shapeCast S8192x128 v shapeCasts_S128x64x128_S8192x128 (ix2 (row p j) f) = v (ix3 p j f) :=
  Cert.LibMidAxisLayout.shapeCast_abc_mc_apply v shapeCasts_S128x64x128_S8192x128 p j f (row p j) rfl

/-- The 8192 rows split back into windows and nodes read, at (p, j), row p · 64 + j. -/
theorem unflat_apply (v : FVec Ideal S8192x128 .f32) (p : Fin 128) (j : Fin 64) (o : Fin 128) :
    shapeCast S128x64x128 v shapeCasts_S8192x128_S128x64x128 (ix3 p j o) = v (ix2 (row p j) o) :=
  Cert.LibMidAxisLayout.shapeCast_mc_abc_apply v shapeCasts_S8192x128_S128x64x128 p j o (row p j) rfl

/-- The flat product into the zero accumulator at (r, o): the sum over the features. -/
theorem linMatmul_apply (l : FVec Ideal S8192x128 .bf16) (w : FVec Ideal S128x128 .bf16) (r : Fin 8192) (o : Fin 128) :
    matmul dot_S8192x128_S128x128_S8192x128_1_0_0_1_n_n none l w (constant S8192x128 .f32 0x00000000#32) (ix2 r o)
      = ∑ f : Fin 128, l (ix2 r f) * w (ix2 f o) :=
  Cert.LibPlainMatmul.matmul_plain_zero_apply dot_S8192x128_S128x128_S8192x128_1_0_0_1_n_n rfl none l w r o

/-- The bias laid as one row and spread over the 8192 rows reads, at (r, o), its entry o. -/
theorem biasRow_apply (b : FVec Ideal S128 .f32) (r : Fin 8192) (o : Fin 128) :
    broadcastTo S8192x128 (shapeCast S1x128 b shapeCasts_S128_S1x128) broadcasts_S1x128_S8192x128 (ix2 r o) = b (ix1 o) :=
  (broadcastTo_1b_ab_apply (shapeCast S1x128 b shapeCasts_S128_S1x128) broadcasts_S1x128_S8192x128 r o).trans
    (shapeCast_a_1a_apply b shapeCasts_S128_S1x128 (0 : Fin 1) o)

/-- The linear images of the block, at window p, node j, output o. -/
theorem linear_apply (x0 : Vec Ideal S128x64x128 .f32) (x1 : Vec Ideal S128x128 .bf16) (x2 : Vec Ideal S128 .f32)
    (p : Fin 128) (j : Fin 64) (o : Fin 128) :
    Gen.k0_pay4 (F := Ideal) x0 x1 x2 (ix3 p j o)
      = Cert.Window.lin (fun i f => x0 (ix3 p i f)) (fun o f => x1 (ix2 f o)) (fun o => x2 (ix1 o)) j o := by
  unfold Gen.k0_pay4 Gen.k0_pay2 Cert.Window.lin
  simp only [shapeCast_self]
  refine (truncf_apply _ bitsLt_bf16_f32 (ix3 p j o)).trans ?_
  refine (unflat_apply _ p j o).trans ?_
  refine (addf_apply _ _ (ix2 (row p j) o)).trans ?_
  refine congrArg₂ (· + ·) ?_ (biasRow_apply x2 (row p j) o)
  refine (linMatmul_apply _ _ (row p j) o).trans ?_
  refine Finset.sum_congr rfl fun f _ => ?_
  refine congrArg (· * x1 (ix2 f o)) ?_
  refine (truncf_apply _ bitsLt_bf16_f32 (ix2 (row p j) f)).trans ?_
  exact flat_apply x0 p j f

end Cert.KernelIdeal.KerPay

end
-- ==== Proof.KerPayWt.lean ====
/-
  The softmax weights of the block, read at an index: at window p and nodes i, j the kernel's value is the
  window's weight wt i j of the 64 × 128 array x (p, ·, ·).

  Every operation of the chain is read at the index it is applied at: the pointwise ones element by
  element, the sums and the maximum over the last axis as a sum or a fold over that axis's coordinates, the
  unit-axis casts and column broadcasts by keeping (p, i), the batched product as the sum over the features.
  What is left is the window's own expression, literal for literal.
-/
import proofs.«115721_j65403761983862_2_alg».proof.Proof.KerPayOps
import proofs.«115721_j65403761983862_2_alg».proof.Proof.KerPayMat
import proofs.«115721_j65403761983862_2_alg».proof.Proof.Window
import Idealize.ShloMosaic.Lib.Pipeline.Value

noncomputable section

open scoped BigOperators

namespace Cert.KernelIdeal.KerPay

open Cert.KernelIdeal Cert.KernelIdeal.Gen Idealize.ShloMosaic Idealize.ShloMosaic.ValueIdx

/-- A square root at an index is the square root of the element … -/
theorem sqrt_apply {s : Shape} {φ : FTy} (a : FVec Ideal s φ) (i : s.Idx) : sqrt a i = Ideal.sqrt (a i) := rfl
/-- … an exponential the exponential … -/
theorem exp_apply {s : Shape} {φ : FTy} (a : FVec Ideal s φ) (i : s.Idx) : exp a i = Ideal.exp (a i) := rfl
/-- … and a reciprocal square root the reciprocal square root of the element. -/
theorem rsqrt_apply {s : Shape} {φ : FTy} (a : FVec Ideal s φ) (i : s.Idx) : rsqrt a i = Ideal.rsqrt (a i) := rfl
/-- A scalar literal is the extended real its bit pattern denotes. -/
theorem lit_f32 (b : BitVec 32) : (Scalar.ofBits (F := Ideal) .f32 b) = Ideal.ofBits .f32 b := rfl

/-- The softmax weights of the block at window p, nodes i and j. -/
theorem weights_apply (x0 : Vec Ideal S128x64x128 .f32) (p : Fin 128) (i j : Fin 64) :
    Gen.k0_pay3 (F := Ideal) x0 (ix3 p i j) = Cert.Window.wt (fun i f => x0 (ix3 p i f)) i j := by
  unfold Gen.k0_pay3 Gen.k0_pay2
  simp only [shapeCast_self, truncf_apply, divf_apply, subf_apply, mulf_apply, addf_apply, sqrt_apply, exp_apply,
    broadcast_apply, wide64_apply, wide128_apply, keep_apply, sum64_apply, sum128_apply, max64_apply, corrMatmul_apply,
    lit_f32]
  rfl

end Cert.KernelIdeal.KerPay

end
-- ==== Proof.KerPay.lean ====
/-
  The kernel body's stored value read at an index: at window p of the block, node i and output o it is the
  window's result out i o of the 64 × 128 array x (p, ·, ·), the transposed weight matrix, the bias, the
  scale and the shift.

  The stored value is the weighted sum of the linear images over the nodes (a batched product into the zero
  accumulator), normalised over its 128 outputs, scaled, shifted and cut at zero.  The weights and the
  linear images are read by their own lemmas; the scale and the shift are vectors of 128 entries laid under
  two unit axes and spread over the block, so they are read at the last coordinate.
-/
import proofs.«115721_j65403761983862_2_alg».proof.Proof.KerPayOps
import proofs.«115721_j65403761983862_2_alg».proof.Proof.KerPayMat
import proofs.«115721_j65403761983862_2_alg».proof.Proof.KerPayLin
import proofs.«115721_j65403761983862_2_alg».proof.Proof.KerPayWt
import proofs.«115721_j65403761983862_2_alg».proof.Proof.Window
import proofs.«115721_j65403761983862_2_alg».proof.Proof.LibMidAxisLayout

noncomputable section

open scoped BigOperators

namespace Cert.KernelIdeal.KerPay

open Cert.KernelIdeal Cert.KernelIdeal.Gen Idealize.ShloMosaic Idealize.ShloMosaic.ValueIdx

/-- A vector of 128 entries laid under two unit axes and spread over the block reads, at (p, i, o), its entry o. -/
theorem feat_apply (g : FVec Ideal S128 .f32) (p : Fin 128) (i : Fin 64) (o : Fin 128) :
    broadcastTo S128x64x128 (shapeCast S1x1x128 g shapeCasts_S128_S1x1x128) broadcasts_S1x1x128_S128x64x128 (ix3 p i o)
      = g (ix1 o) :=
  (Cert.LibMidAxisLayout.broadcastTo_11n_abn_apply (shapeCast S1x1x128 g shapeCasts_S128_S1x1x128)
      broadcasts_S1x1x128_S128x64x128 p i o).trans
    (Cert.LibMidAxisLayout.shapeCast_n_11n_apply g shapeCasts_S128_S1x1x128 (0 : Fin 1) (0 : Fin 1) o)

/-- The stored value of the body at window p, node i, output o is the window's result. -/
theorem pay_apply (x0 : Vec Ideal S128x64x128 .f32) (x1 : Vec Ideal S128x128 .bf16) (x2 x3 x4 : Vec Ideal S128 .f32)
    (p : Fin 128) (i : Fin 64) (o : Fin 128) :
    Gen.k0_pay1 (F := Ideal) (Gen.k0_pay3 x0) (Gen.k0_pay4 x0 x1 x2) (constant S128x64x128 .f32 0x00000000#32) x3 x4 (ix3 p i o)
      = Cert.Window.out (fun i f => x0 (ix3 p i f)) (fun o f => x1 (ix2 f o)) (fun o => x2 (ix1 o)) (fun o => x3 (ix1 o)) (fun o => x4 (ix1 o)) i o := by
  unfold Gen.k0_pay1
  simp only [maximumf_apply, divf_apply, subf_apply, mulf_apply, addf_apply, rsqrt_apply, broadcast_apply,
    wide128_apply, keep_apply, sum128_apply, aggMatmul_apply, feat_apply, weights_apply, linear_apply, lit_f32,
    Ideal.ofBits_zero_f32]
  rfl

end Cert.KernelIdeal.KerPay

end
-- ==== Proof.KerValueB.lean ====
/-
  From blocks to the array, and from the array to the program's result.

  The region runs the body at 50 points; point `t` reads windows `t·128 … t·128 + 127` of the re-laid
  input (and the whole of the transposed weights, the bias, the scale and the shift) and writes back the same
  windows of the result array.  At every window `p` of a block, node `i` and output `o`, the value the body
  stores is the window function of that window of the block; so what point `t` writes back is block `t` of ONE
  function `G3` of the arrays the region finds — entry `(w, i, o)` the window function of window `w` —, the
  blocks cover the array (window `w` lies in the block of point `w / 128`), and the array ends holding `G3`.
  The one host operation after the region re-lays [6400, 64, 128] as [32, 200, 64, 128] (window `(B, T)` is
  window `B·200 + T`), and the arrays the region finds are the arguments re-laid, so the program's result at
  `(B, T, i, o)` is the window function of window `(B, T)` of the input.
-/
import proofs.«115721_j65403761983862_2_alg».proof.Proof.Gen.KernelIdeal.Frame
import proofs.«115721_j65403761983862_2_alg».proof.Proof.Window
import proofs.«115721_j65403761983862_2_alg».proof.Proof.KerValueA
import proofs.«115721_j65403761983862_2_alg».proof.Proof.KerPay
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The region's result array as one function of the arrays the region finds: entry `(w, i, o)` is
    the window function of window `w` of the re-laid input, at node `i` and output `o`. -/
def G3 (c : Dev nD) : S6400x64x128.Idx → EReal := fun j =>
  Cert.Window.out (fun i f => (V m c main_v0 : S6400x64x128.Idx → EReal) (ix3 (j 0) i f))
    (fun o f => (V m c main_v2 : S128x128.Idx → EReal) (ix2 f o))
    (fun o => (V m c main_arg2 : S128.Idx → EReal) (ix1 o))
    (fun o => (V m c main_arg3 : S128.Idx → EReal) (ix1 o))
    (fun o => (V m c main_arg4 : S128.Idx → EReal) (ix1 o))
    (j 1) (j 2)

/-- The printed index maps, decided over the grid: the input and the output blocks move along the window
    axis with the point, every other window stays at block 0. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0 :=
  (by decide +kernel : ∀ t : Fin grid0.N, _)

/-- The input window's block at point `t`: its window `p` is window `t·128 + p` of the array. -/
theorem iblk0_apply (c : Dev nD) (t : Fin cfg0.N) (p : Fin 128) (i : Fin 64) (f : Fin 128) (w : Fin 6400)
    (hw : w.val = t.val * 128 + p.val) :
    (iblk m c 0 t : Vec Ideal S128x64x128 .f32) (ix3 p i f) = (V m c main_v0 : S6400x64x128.Idx → EReal) (ix3 w i f) := by
  obtain ⟨e0, e1, e2, -⟩ := idx_facts t
  unfold iblk
  rw [View.read_apply]
  show V m c main_v0 (((cfg0.win 0).blk t).view.emb (ix3 p i f)) = V m c main_v0 (ix3 w i f)
  refine congrArg (V m c main_v0) ?_
  funext a
  apply Fin.ext
  match a with
  | ⟨0, _⟩ => show win0_0.index t (0 : Fin 3) * 128 + 1 * p.val = w.val; omega
  | ⟨1, _⟩ => show win0_0.index t (1 : Fin 3) * 64 + 1 * i.val = i.val; omega
  | ⟨2, _⟩ => show win0_0.index t (2 : Fin 3) * 128 + 1 * f.val = f.val; omega

/-- The transposed weights' block at every point is the whole array. -/
theorem iblk1_apply (c : Dev nD) (t : Fin cfg0.N) (f o : Fin 128) :
    (iblk m c 1 t : Vec Ideal S128x128 .bf16) (ix2 f o) = (V m c main_v2 : S128x128.Idx → EReal) (ix2 f o) := by
  obtain ⟨-, -, -, -, -, -, e0, e1, -⟩ := idx_facts t
  unfold iblk
  rw [View.read_apply]
  show V m c main_v2 (((cfg0.win 1).blk t).view.emb (ix2 f o)) = V m c main_v2 (ix2 f o)
  refine congrArg (V m c main_v2) ?_
  funext a
  apply Fin.ext
  match a with
  | ⟨0, _⟩ => show win0_1.index t (0 : Fin 2) * 128 + 1 * f.val = f.val; omega
  | ⟨1, _⟩ => show win0_1.index t (1 : Fin 2) * 128 + 1 * o.val = o.val; omega

/-- So are the bias's, -/
theorem iblk2_apply (c : Dev nD) (t : Fin cfg0.N) (o : Fin 128) :
    (iblk m c 2 t : Vec Ideal S128 .f32) (ix1 o) = (V m c main_arg2 : S128.Idx → EReal) (ix1 o) := by
  obtain ⟨-, -, -, -, -, -, -, -, e0, -⟩ := idx_facts t
  unfold iblk
  rw [View.read_apply]
  show V m c main_arg2 (((cfg0.win 2).blk t).view.emb (ix1 o)) = V m c main_arg2 (ix1 o)
  refine congrArg (V m c main_arg2) ?_
  funext a
  apply Fin.ext
  match a with
  | ⟨0, _⟩ => show win0_2.index t (0 : Fin 1) * 128 + 1 * o.val = o.val; omega

/-- the scale's -/
theorem iblk3_apply (c : Dev nD) (t : Fin cfg0.N) (o : Fin 128) :
    (iblk m c 3 t : Vec Ideal S128 .f32) (ix1 o) = (V m c main_arg3 : S128.Idx → EReal) (ix1 o) := by
  obtain ⟨-, -, -, -, -, -, -, -, -, e0, -⟩ := idx_facts t
  unfold iblk
  rw [View.read_apply]
  show V m c main_arg3 (((cfg0.win 3).blk t).view.emb (ix1 o)) = V m c main_arg3 (ix1 o)
  refine congrArg (V m c main_arg3) ?_
  funext a
  apply Fin.ext
  match a with
  | ⟨0, _⟩ => show win0_3.index t (0 : Fin 1) * 128 + 1 * o.val = o.val; omega

/-- and the shift's. -/
theorem iblk4_apply (c : Dev nD) (t : Fin cfg0.N) (o : Fin 128) :
    (iblk m c 4 t : Vec Ideal S128 .f32) (ix1 o) = (V m c main_arg4 : S128.Idx → EReal) (ix1 o) := by
  obtain ⟨-, -, -, -, -, -, -, -, -, -, e0⟩ := idx_facts t
  unfold iblk
  rw [View.read_apply]
  show V m c main_arg4 (((cfg0.win 4).blk t).view.emb (ix1 o)) = V m c main_arg4 (ix1 o)
  refine congrArg (V m c main_arg4) ?_
  funext a
  apply Fin.ext
  match a with
  | ⟨0, _⟩ => show win0_4.index t (0 : Fin 1) * 128 + 1 * o.val = o.val; omega

/-- What point `t` writes back is block `t` of `G3`: window `p` of the block is window `t·128 + p`
    of the array, and the body's stored value there is the window function of that window. -/
theorem flushed_eq (c : Dev nD) (t : Fin cfg0.N) :
    (dats m 0 c).flushed 5 t = ((cfg0.win 5).blk t).view.read (Elt Ideal) (G3 m c) := by
  have hN : cfg0.N = 50 := N_0
  obtain ⟨-, -, -, e0, e1, e2, -⟩ := idx_facts t
  show (cfg0.win 5).cut (grid0.coords t) ((dats m 0 c).after 5 t) = _
  rw [after0_5]
  unfold out0_5
  rw [View.canon_unit_zero hz3]
  simp only [View.ld_unit_zero (S := S128x64x128) hz3, View.ld_unit_zero (S := S128x128) hz2, View.ld_unit_zero (S := S128) hz1]
  funext y
  obtain ⟨p, i, o, rfl⟩ : ∃ (p : Fin 128) (i : Fin 64) (o : Fin 128), y = ix3 p i o := ⟨y 0, y 1, y 2, eq_ix3 y⟩
  have hlt : t.val * 128 + p.val < 6400 := by have := t.isLt; have := p.isLt; omega
  have hemb : ((cfg0.win 5).blk t).view.emb (ix3 p i o) = ix3 (⟨t.val * 128 + p.val, hlt⟩ : Fin 6400) i o := by
    funext a; apply Fin.ext
    match a with
    | ⟨0, _⟩ => show win0_5.index t (0 : Fin 3) * 128 + 1 * p.val = t.val * 128 + p.val; omega
    | ⟨1, _⟩ => show win0_5.index t (1 : Fin 3) * 64 + 1 * i.val = i.val; omega
    | ⟨2, _⟩ => show win0_5.index t (2 : Fin 3) * 128 + 1 * o.val = o.val; omega
  show k0_pay1 (k0_pay3 (iblk m c 0 t)) (k0_pay4 (iblk m c 0 t) (iblk m c 1 t) (iblk m c 2 t)) (constant S128x64x128 .f32 0x00000000#32) (iblk m c 3 t) (iblk m c 4 t) (ix3 p i o)
    = G3 m c (((cfg0.win 5).blk t).view.emb (ix3 p i o))
  rw [hemb]
  refine (KerPay.pay_apply (iblk m c 0 t) (iblk m c 1 t) (iblk m c 2 t) (iblk m c 3 t) (iblk m c 4 t) p i o).trans ?_
  have h0 : (fun (i : Fin 64) (f : Fin 128) => (iblk m c 0 t : Vec Ideal S128x64x128 .f32) (ix3 p i f))
      = fun i f => (V m c main_v0 : S6400x64x128.Idx → EReal) (ix3 (⟨t.val * 128 + p.val, hlt⟩ : Fin 6400) i f) :=
    funext fun i => funext fun f => iblk0_apply m c t p i f _ rfl
  have h1 : (fun (o f : Fin 128) => (iblk m c 1 t : Vec Ideal S128x128 .bf16) (ix2 f o))
      = fun o f => (V m c main_v2 : S128x128.Idx → EReal) (ix2 f o) :=
    funext fun o => funext fun f => iblk1_apply m c t f o
  have h2 : (fun (o : Fin 128) => (iblk m c 2 t : Vec Ideal S128 .f32) (ix1 o))
      = fun o => (V m c main_arg2 : S128.Idx → EReal) (ix1 o) := funext fun o => iblk2_apply m c t o
  have h3 : (fun (o : Fin 128) => (iblk m c 3 t : Vec Ideal S128 .f32) (ix1 o))
      = fun o => (V m c main_arg3 : S128.Idx → EReal) (ix1 o) := funext fun o => iblk3_apply m c t o
  have h4 : (fun (o : Fin 128) => (iblk m c 4 t : Vec Ideal S128 .f32) (ix1 o))
      = fun o => (V m c main_arg4 : S128.Idx → EReal) (ix1 o) := funext fun o => iblk4_apply m c t o
  rw [h0, h1, h2, h3, h4]
  rfl

/-- An index of the array is in point `t`'s block iff each coordinate is in the block's range on its axis. -/
theorem mem_blk (t : Fin cfg0.N) (i : S6400x64x128.Idx) :
    i ∈ ((cfg0.win 5).blk t).view.set ↔ ∀ a : Fin 3, win0_5.index t a * S128x64x128.size a ≤ (i a).val ∧ (i a).val < win0_5.index t a * S128x64x128.size a + S128x64x128.size a := by
  show i ∈ ((View.whole main_v3).slice (win0_5.rect t)).set ↔ _
  rw [View.set_slice_whole, Rect.mem_set_unit]
  exact Iff.rfl

/-- Every window of the array is in the block of the point its number divided by 128 names. -/
theorem cover (i : S6400x64x128.Idx) : ∃ t : Fin cfg0.N, (cfg0.win 5).flush t = true ∧ i ∈ ((cfg0.win 5).blk t).view.set := by
  have hN : cfg0.N = 50 := N_0
  have h0 : (i 0).val < 6400 := (i 0).isLt
  have h1 : (i 1).val < 64 := (i 1).isLt
  have h2 : (i 2).val < 128 := (i 2).isLt
  have hq : (i 0).val / 128 < cfg0.N := by rw [hN]; omega
  refine ⟨⟨(i 0).val / 128, hq⟩, flush0_5 _, ?_⟩
  rw [mem_blk]
  obtain ⟨-, -, -, e0, e1, e2, -⟩ := idx_facts ⟨(i 0).val / 128, hq⟩
  intro a
  match a with
  | ⟨0, _⟩ =>
    show win0_5.index ⟨(i 0).val / 128, hq⟩ (0 : Fin 3) * 128 ≤ (i 0).val ∧ (i 0).val < win0_5.index ⟨(i 0).val / 128, hq⟩ (0 : Fin 3) * 128 + 128
    rw [e0]; show (i 0).val / 128 * 128 ≤ (i 0).val ∧ (i 0).val < (i 0).val / 128 * 128 + 128; omega
  | ⟨1, _⟩ =>
    show win0_5.index ⟨(i 0).val / 128, hq⟩ (1 : Fin 3) * 64 ≤ (i 1).val ∧ (i 1).val < win0_5.index ⟨(i 0).val / 128, hq⟩ (1 : Fin 3) * 64 + 64
    rw [e1]; omega
  | ⟨2, _⟩ =>
    show win0_5.index ⟨(i 0).val / 128, hq⟩ (2 : Fin 3) * 128 ≤ (i 2).val ∧ (i 2).val < win0_5.index ⟨(i 0).val / 128, hq⟩ (2 : Fin 3) * 128 + 128
    rw [e2]; omega

/-- So the region's result array ends holding `G3`. -/
theorem final (c : Dev nD) : (dats m 0 c).arrAt 5 cfg0.N = G3 m c :=
  (dats m 0 c).arrAt_eq_of_cover 5 (G3 m c) (fun t _ => flushed_eq m c t) cover

/-- The program's result: the region's result array re-laid as [32, 200, 64, 128]. -/
def KOut (c : Dev nD) : S32x200x64x128.Idx → EReal :=
  shapeCast S32x200x64x128 (G3 m c) shapeCasts_S6400x64x128_S32x200x64x128

/-- After the one host operation that follows the region the result buffer holds `KOut`. -/
theorem tail_eq (c : Dev nD) : Pipeline.afterTail₀ cfgs (dats m) 0 (V0 m) [hostOps1] c main_v4 = KOut m c := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3) = G3 m c from
    (Pipeline.withArrays_arr spec0 launch0.win.arr_inj c _ _ 5).trans (final m c)]
  rfl

/-- The run, read: every weakly fair execution ends with the result buffer at `KOut` and the five
    argument arrays as launched. -/
theorem run : θ_run defs (onTc (τ := τ) (main (F := Ideal))) ⟨m, fun _ => 0, ρ⟩ fun r => ∀ c : Dev nD,
      r.2.mem ((c.tc : Thread nD τ).loc main_v4) = KOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The program's result at window `(B, T)`, node `i`, output `o`: the window function of that window of
    the input, with the weights, bias, scale and shift as launched. -/
theorem KOut_apply (c : Dev nD) (B : Fin 32) (T : Fin 200) (i : Fin 64) (o : Fin 128) :
    KOut m c (ix4 B T i o)
      = Cert.Window.out (fun i f => (m ((c.tc : Thread nD τ).loc main_arg0) : S32x200x64x128.Idx → EReal) (ix4 B T i f))
          (fun o f => (m ((c.tc : Thread nD τ).loc main_arg1) : S128x128.Idx → EReal) (ix2 o f))
          (fun o => (m ((c.tc : Thread nD τ).loc main_arg2) : S128.Idx → EReal) (ix1 o))
          (fun o => (m ((c.tc : Thread nD τ).loc main_arg3) : S128.Idx → EReal) (ix1 o))
          (fun o => (m ((c.tc : Thread nD τ).loc main_arg4) : S128.Idx → EReal) (ix1 o)) i o := by
  have e : KOut m c (ix4 B T i o) = G3 m c (ix3 (flat B T) i o) := by
    unfold KOut
    refine shapeCast_apply _ _ _ _ ?_
    show (S6400x64x128.rowMajor (ix3 (flat B T) i o)).val = (S32x200x64x128.rowMajor (ix4 B T i o)).val
    rw [Shape.rowMajor_val_four, Shape.rowMajor_val_three]
    rfl
  rw [e]
  show Cert.Window.out (fun i f => (V m c main_v0 : S6400x64x128.Idx → EReal) (ix3 (flat B T) i f))
    (fun o f => (V m c main_v2 : S128x128.Idx → EReal) (ix2 f o))
    (fun o => (V m c main_arg2 : S128.Idx → EReal) (ix1 o))
    (fun o => (V m c main_arg3 : S128.Idx → EReal) (ix1 o))
    (fun o => (V m c main_arg4 : S128.Idx → EReal) (ix1 o)) i o = _
  rw [show (fun (i : Fin 64) (f : Fin 128) => (V m c main_v0 : S6400x64x128.Idx → EReal) (ix3 (flat B T) i f))
        = fun i f => (m ((c.tc : Thread nD τ).loc main_arg0) : S32x200x64x128.Idx → EReal) (ix4 B T i f) from
      funext fun i => funext fun f => V_v0_apply m c B T i f,
    show (fun (o f : Fin 128) => (V m c main_v2 : S128x128.Idx → EReal) (ix2 f o))
        = fun o f => (m ((c.tc : Thread nD τ).loc main_arg1) : S128x128.Idx → EReal) (ix2 o f) from
      funext fun o => funext fun f => V_v2_apply m c f o,
    V_main_arg2 m c, V_main_arg3 m c, V_main_arg4 m c]

end Cert.KernelIdeal.KerValue

end
-- ==== Proof.RefRunOps.lean ====
/-
  The reference program as a straight line of host operations.

  The program's entry function runs 108 array operations in order; three of them are calls of outlined
  functions (the standard deviation, which calls the variance, which calls a selection; the variance
  again; the positive part), and a call executes the callee's body on the caller's buffers.  Here the
  calls are written out in place, so that the whole program is one list `ops`.  `main_eq` says the entry
  function is exactly that line; `run_main` that every fair execution of it terminates with each buffer
  at the fold of the operations over the launch contents.
-/
import proofs.«115721_j65403761983862_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 108 operations, in order, the calls written out in place: the first nine compute the
    centred array; twenty-four are the standard deviation (the variance's twenty, the selection's three,
    the square root); thirty-five normalise, correlate, take the softmax, map linearly, aggregate and
    average; twenty-three are the second variance; fourteen scale and shift; three take the positive part. -/
abbrev ops : List (HloOp τ sig (Elt F)) :=
  [ StableHlo.nullary main_cst (constant S_ .f32 0x00000000#32),
    StableHlo.binary main_arg0 main_cst main_v0 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    StableHlo.unary main_v0 main_v1 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.nullary main_cst_0 (constant S_ .f32 0x43000000#32),
    StableHlo.unary main_cst_0 main_v2 (broadcastInDim S32x200x64x1 ![] bcast_S_S32x200x64x1 : (⟨S_, .f32⟩ : BufTy).Contents (Elt F) → (⟨S32x200x64x1, .f32⟩ : BufTy).Contents (Elt F)),
    StableHlo.binary main_v1 main_v2 main_v3 (Host.divf : (⟨S32x200x64x1, .f32⟩ : BufTy).Contents (Elt F) → (⟨S32x200x64x1, .f32⟩ : BufTy).Contents (Elt F) → (⟨S32x200x64x1, .f32⟩ : BufTy).Contents (Elt F)),
    StableHlo.unary main_v3 main_v4 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_arg0 main_v4 main_v5 (subf : (⟨S32x200x64x128, .f32⟩ : BufTy).Contents (Elt F) → (⟨S32x200x64x128, .f32⟩ : BufTy).Contents (Elt F) → (⟨S32x200x64x128, .f32⟩ : BufTy).Contents (Elt F)),
    StableHlo.nullary main_c (constantI S_ 32 1#32),
    StableHlo.TRef.nullary main_call0.call0.cst (constant S_ .f32 0x00000000#32),
    StableHlo.TRef.binary (.of main_arg0) main_call0.call0.cst main_call0.call0.v0 (fun x v => Host.reduceAdd x v reducesTo_S32x200x64x128_S32x200x64_d3 h_S_),
    StableHlo.TRef.unary main_call0.call0.v0 main_call0.call0.v1 (broadcastInDim S32x200x64x1 ![0, 1, 2] bcast_S32x200x64_S32x200x64x1_0_1_2),
    StableHlo.TRef.nullary main_call0.call0.cst_0 (constant S_ .f32 0x43000000#32),
    StableHlo.TRef.unary main_call0.call0.cst_0 main_call0.call0.v2 (broadcastInDim S32x200x64x1 ![] bcast_S_S32x200x64x1),
    StableHlo.TRef.binary main_call0.call0.v1 main_call0.call0.v2 main_call0.call0.v3 Host.divf,
    StableHlo.TRef.unary main_call0.call0.v3 main_call0.call0.v4 (broadcastInDim S32x200x64x128 ![0, 1, 2, 3] bcast_S32x200x64x1_S32x200x64x128_0_1_2_3),
    StableHlo.TRef.binary (.of main_arg0) main_call0.call0.v4 main_call0.call0.v5 subf,
    StableHlo.TRef.binary main_call0.call0.v5 main_call0.call0.v5 main_call0.call0.v6 mulf,
    StableHlo.TRef.unary (.of main_c) main_call0.call0.v7 (sitofp .f32),
    StableHlo.TRef.nullary main_call0.call0.cst_1 (constant S_ .f32 0x43000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S32x200x64x128_S32x200x64_d3 h_S_),
    StableHlo.TRef.unary main_call0.call0.v9 main_call0.call0.v10 (broadcastInDim S32x200x64x1 ![0, 1, 2] bcast_S32x200x64_S32x200x64x1_0_1_2),
    StableHlo.TRef.unary main_call0.call0.v8 main_call0.call0.v11 (broadcastInDim S32x200x64x1 ![] bcast_S_S32x200x64x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S32x200x64x1 ![] bcast_S_S32x200x64x1),
    StableHlo.TRef.ternary main_call0.call0.v13 main_call0.call0.v12 main_call0.call0.call0.v1 main_call0.call0.call0.v2 (fun p a b => select (broadcastInDim S32x200x64x1 ![] bcast_S_S32x200x64x1 p) a b),
    StableHlo.TRef.unary main_call0.call0.call0.v2 main_call0.v1 Host.sqrt,
    StableHlo.nullary main_cst_1 (constant S_ .f32 0x358637BD#32),
    StableHlo.unary main_cst_1 main_v7 (broadcastInDim S32x200x64x1 ![] bcast_S_S32x200x64x1 : (⟨S_, .f32⟩ : BufTy).Contents (Elt F) → (⟨S32x200x64x1, .f32⟩ : BufTy).Contents (Elt F)),
    StableHlo.binary main_v6 main_v7 main_v8 (addf : (⟨S32x200x64x1, .f32⟩ : BufTy).Contents (Elt F) → (⟨S32x200x64x1, .f32⟩ : BufTy).Contents (Elt F) → (⟨S32x200x64x1, .f32⟩ : BufTy).Contents (Elt F)),
    StableHlo.unary main_v8 main_v9 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v5 main_v9 main_v10 (Host.divf : (⟨S32x200x64x128, .f32⟩ : BufTy).Contents (Elt F) → (⟨S32x200x64x128, .f32⟩ : BufTy).Contents (Elt F) → (⟨S32x200x64x128, .f32⟩ : BufTy).Contents (Elt F)),
    StableHlo.binary main_v10 main_v10 main_v11 ((fun l r => Host.dotGeneral dot_S32x200x64x128_S32x200x64x128_S32x200x64x64_3_3_2_2_01_01 none l r) : (⟨S32x200x64x128, .f32⟩ : BufTy).Contents (Elt F) → (⟨S32x200x64x128, .f32⟩ : BufTy).Contents (Elt F) → (⟨S32x200x64x64, .f32⟩ : BufTy).Contents (Elt F)),
    StableHlo.nullary main_cst_2 (constant S_ .f32 0x43000000#32),
    StableHlo.unary main_cst_2 main_v12 (broadcastInDim S32x200x64x64 ![] bcast_S_S32x200x64x64 : (⟨S_, .f32⟩ : BufTy).Contents (Elt F) → (⟨S32x200x64x64, .f32⟩ : BufTy).Contents (Elt F)),
    StableHlo.binary main_v11 main_v12 main_v13 (Host.divf : (⟨S32x200x64x64, .f32⟩ : BufTy).Contents (Elt F) → (⟨S32x200x64x64, .f32⟩ : BufTy).Contents (Elt F) → (⟨S32x200x64x64, .f32⟩ : BufTy).Contents (Elt F)),
    StableHlo.nullary main_cst_3 (constant S_ .f32 0xFF800000#32),
    StableHlo.binary main_v13 main_cst_3 main_v14 ((fun x v => Host.reduce FloatOps.maximumf x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    StableHlo.nullary main_cst_4 (constant S_ .f32 0xFF800000#32),
    StableHlo.unary main_cst_4 main_v15 (broadcastInDim S32x200x64 ![] bcast_S_S32x200x64 : (⟨S_, .f32⟩ : BufTy).Contents (Elt F) → (⟨S32x200x64, .f32⟩ : BufTy).Contents (Elt F)),
    StableHlo.binary main_v15 main_v14 main_v16 (maximumf : (⟨S32x200x64, .f32⟩ : BufTy).Contents (Elt F) → (⟨S32x200x64, .f32⟩ : BufTy).Contents (Elt F) → (⟨S32x200x64, .f32⟩ : BufTy).Contents (Elt F)),
    StableHlo.unary main_v16 main_v17 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.unary main_v17 main_v18 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    StableHlo.binary main_v13 main_v18 main_v19 (subf : (⟨S32x200x64x64, .f32⟩ : BufTy).Contents (Elt F) → (⟨S32x200x64x64, .f32⟩ : BufTy).Contents (Elt F) → (⟨S32x200x64x64, .f32⟩ : BufTy).Contents (Elt F)),
    StableHlo.unary main_v19 main_v20 (Host.exp : (⟨S32x200x64x64, .f32⟩ : BufTy).Contents (Elt F) → (⟨S32x200x64x64, .f32⟩ : BufTy).Contents (Elt F)),
    StableHlo.nullary main_cst_5 (constant S_ .f32 0x00000000#32),
    StableHlo.binary main_v20 main_cst_5 main_v21 ((fun x v => Host.reduceAdd x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    StableHlo.unary main_v21 main_v22 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.unary main_v22 main_v23 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    StableHlo.binary main_v20 main_v23 main_v24 (Host.divf : (⟨S32x200x64x64, .f32⟩ : BufTy).Contents (Elt F) → (⟨S32x200x64x64, .f32⟩ : BufTy).Contents (Elt F) → (⟨S32x200x64x64, .f32⟩ : BufTy).Contents (Elt F)),
    StableHlo.binary main_arg0 main_arg1 main_v25 ((fun l r => Host.dotGeneral dot_S32x200x64x128_S128x128_S32x200x64x128_3_1_012_0_n_n none l r) : (⟨S32x200x64x128, .f32⟩ : BufTy).Contents (Elt F) → (⟨S128x128, .f32⟩ : BufTy).Contents (Elt F) → (⟨S32x200x64x128, .f32⟩ : BufTy).Contents (Elt F)),
    StableHlo.unary main_arg2 main_v26 (broadcastInDim S1x1x1x128 ![3] bcast_S128_S1x1x1x128_3 : (⟨S128, .f32⟩ : BufTy).Contents (Elt F) → (⟨S1x1x1x128, .f32⟩ : BufTy).Contents (Elt F)),
    StableHlo.unary main_v26 main_v27 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v25 main_v27 main_v28 (addf : (⟨S32x200x64x128, .f32⟩ : BufTy).Contents (Elt F) → (⟨S32x200x64x128, .f32⟩ : BufTy).Contents (Elt F) → (⟨S32x200x64x128, .f32⟩ : BufTy).Contents (Elt F)),
    StableHlo.binary main_v24 main_v28 main_v29 ((fun l r => Host.dotGeneral dot_S32x200x64x64_S32x200x64x128_S32x200x64x128_3_2_2_3_01_01 none l r) : (⟨S32x200x64x64, .f32⟩ : BufTy).Contents (Elt F) → (⟨S32x200x64x128, .f32⟩ : BufTy).Contents (Elt F) → (⟨S32x200x64x128, .f32⟩ : BufTy).Contents (Elt F)),
    StableHlo.nullary main_cst_6 (constant S_ .f32 0x00000000#32),
    StableHlo.binary main_v29 main_cst_6 main_v30 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    StableHlo.unary main_v30 main_v31 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.nullary main_cst_7 (constant S_ .f32 0x43000000#32),
    StableHlo.unary main_cst_7 main_v32 (broadcastInDim S32x200x64x1 ![] bcast_S_S32x200x64x1 : (⟨S_, .f32⟩ : BufTy).Contents (Elt F) → (⟨S32x200x64x1, .f32⟩ : BufTy).Contents (Elt F)),
    StableHlo.binary main_v31 main_v32 main_v33 (Host.divf : (⟨S32x200x64x1, .f32⟩ : BufTy).Contents (Elt F) → (⟨S32x200x64x1, .f32⟩ : BufTy).Contents (Elt F) → (⟨S32x200x64x1, .f32⟩ : BufTy).Contents (Elt F)),
    StableHlo.nullary main_c_8 (constantI S_ 32 0#32),
    StableHlo.TRef.nullary main_call1.cst (constant S_ .f32 0x00000000#32),
    StableHlo.TRef.binary (.of main_v29) main_call1.cst main_call1.v0 (fun x v => Host.reduceAdd x v reducesTo_S32x200x64x128_S32x200x64_d3 h_S_),
    StableHlo.TRef.unary main_call1.v0 main_call1.v1 (broadcastInDim S32x200x64x1 ![0, 1, 2] bcast_S32x200x64_S32x200x64x1_0_1_2),
    StableHlo.TRef.nullary main_call1.cst_0 (constant S_ .f32 0x43000000#32),
    StableHlo.TRef.unary main_call1.cst_0 main_call1.v2 (broadcastInDim S32x200x64x1 ![] bcast_S_S32x200x64x1),
    StableHlo.TRef.binary main_call1.v1 main_call1.v2 main_call1.v3 Host.divf,
    StableHlo.TRef.unary main_call1.v3 main_call1.v4 (broadcastInDim S32x200x64x128 ![0, 1, 2, 3] bcast_S32x200x64x1_S32x200x64x128_0_1_2_3),
    StableHlo.TRef.binary (.of main_v29) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32x200x64x128_S32x200x64_d3 h_S_),
    StableHlo.TRef.unary main_call1.v9 main_call1.v10 (broadcastInDim S32x200x64x1 ![0, 1, 2] bcast_S32x200x64_S32x200x64x1_0_1_2),
    StableHlo.TRef.unary main_call1.v8 main_call1.v11 (broadcastInDim S32x200x64x1 ![] bcast_S_S32x200x64x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32x200x64x1 ![] bcast_S_S32x200x64x1),
    StableHlo.TRef.ternary main_call1.v13 main_call1.v12 main_call1.call0.v1 main_call1.call0.v2 (fun p a b => select (broadcastInDim S32x200x64x1 ![] bcast_S_S32x200x64x1 p) a b),
    StableHlo.unary main_v33 main_v35 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v29 main_v35 main_v36 (subf : (⟨S32x200x64x128, .f32⟩ : BufTy).Contents (Elt F) → (⟨S32x200x64x128, .f32⟩ : BufTy).Contents (Elt F) → (⟨S32x200x64x128, .f32⟩ : BufTy).Contents (Elt F)),
    StableHlo.nullary main_cst_9 (constant S_ .f32 0x3727C5AC#32),
    StableHlo.unary main_cst_9 main_v37 (broadcastInDim S32x200x64x1 ![] bcast_S_S32x200x64x1 : (⟨S_, .f32⟩ : BufTy).Contents (Elt F) → (⟨S32x200x64x1, .f32⟩ : BufTy).Contents (Elt F)),
    StableHlo.binary main_v34 main_v37 main_v38 (addf : (⟨S32x200x64x1, .f32⟩ : BufTy).Contents (Elt F) → (⟨S32x200x64x1, .f32⟩ : BufTy).Contents (Elt F) → (⟨S32x200x64x1, .f32⟩ : BufTy).Contents (Elt F)),
    StableHlo.unary main_v38 main_v39 (Host.rsqrt : (⟨S32x200x64x1, .f32⟩ : BufTy).Contents (Elt F) → (⟨S32x200x64x1, .f32⟩ : BufTy).Contents (Elt F)),
    StableHlo.unary main_v39 main_v40 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v36 main_v40 main_v41 (mulf : (⟨S32x200x64x128, .f32⟩ : BufTy).Contents (Elt F) → (⟨S32x200x64x128, .f32⟩ : BufTy).Contents (Elt F) → (⟨S32x200x64x128, .f32⟩ : BufTy).Contents (Elt F)),
    StableHlo.unary main_arg3 main_v42 (broadcastInDim S1x1x1x128 ![3] bcast_S128_S1x1x1x128_3 : (⟨S128, .f32⟩ : BufTy).Contents (Elt F) → (⟨S1x1x1x128, .f32⟩ : BufTy).Contents (Elt F)),
    StableHlo.unary main_v42 main_v43 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v41 main_v43 main_v44 (mulf : (⟨S32x200x64x128, .f32⟩ : BufTy).Contents (Elt F) → (⟨S32x200x64x128, .f32⟩ : BufTy).Contents (Elt F) → (⟨S32x200x64x128, .f32⟩ : BufTy).Contents (Elt F)),
    StableHlo.unary main_arg4 main_v45 (broadcastInDim S1x1x1x128 ![3] bcast_S128_S1x1x1x128_3 : (⟨S128, .f32⟩ : BufTy).Contents (Elt F) → (⟨S1x1x1x128, .f32⟩ : BufTy).Contents (Elt F)),
    StableHlo.unary main_v45 main_v46 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v44 main_v46 main_v47 (addf : (⟨S32x200x64x128, .f32⟩ : BufTy).Contents (Elt F) → (⟨S32x200x64x128, .f32⟩ : BufTy).Contents (Elt F) → (⟨S32x200x64x128, .f32⟩ : BufTy).Contents (Elt F)),
    StableHlo.TRef.nullary main_call2.cst (constant S_ .f32 0x00000000#32),
    StableHlo.TRef.unary main_call2.cst main_call2.v0 (broadcastInDim S32x200x64x128 ![] bcast_S_S32x200x64x128),
    StableHlo.TRef.binary (.of main_v47) main_call2.v0 main_call2.v1 maximumf ]

-- both sides are one chain of 108 steps once the calls are unfolded: the comparison walks it to the end
set_option maxRecDepth 8192 in
set_option maxHeartbeats 2000000 in
/-- The entry function is that straight line: unfolding the outlined functions at their calls and
    re-associating the sequencing is computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
set_option maxHeartbeats 2000000 in
/-- On every device, for any float values, from any memory with zero counters: every weakly fair
    execution of the entry function terminates, and every final state has each buffer at the fold of
    the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunStages.lean ====
/-
  The reference program's line of operations, stage by stage.

  The 108 operations are cut into eleven consecutive stages, one per step of the layer (centring, the
  standard deviation, the normalisation, the correlation, the exponentials of the softmax, its weights,
  the linear map and the aggregation, the mean of the aggregate, its variance, the scaled and shifted
  normalisation, the positive part).  The three stages that are bodies of outlined functions are also
  written over the plain buffers they denote, and the two spellings are equal by computation.  For every
  stage the list of buffers its operations write is recorded, with the fact that they write nothing
  else: a buffer outside that list keeps its contents through the stage.
-/
import proofs.«115721_j65403761983862_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other folds the second over the result of the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- An operation whose one written buffer is in a list writes inside the list. -/
theorem writes_sub {W : List (Ref sig .tc)} {y : Ref sig .tc} {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

local notation "w!" => writes_sub rfl (by decide)

/-- The five argument buffers. -/
abbrev argRefs : List (Ref sig .tc) := [main_arg0, main_arg1, main_arg2, main_arg3, main_arg4]

/-! ### Stage A: operations 1 … 9 -/

/-- The mean over the features and the centred array; the correction 1 of the first variance. -/
abbrev opsA : List (HloOp τ sig (Elt F)) :=
  [ StableHlo.nullary main_cst (constant S_ .f32 0x00000000#32),
    StableHlo.binary main_arg0 main_cst main_v0 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    StableHlo.unary main_v0 main_v1 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.nullary main_cst_0 (constant S_ .f32 0x43000000#32),
    StableHlo.unary main_cst_0 main_v2 (broadcastInDim S32x200x64x1 ![] bcast_S_S32x200x64x1 : (⟨S_, .f32⟩ : BufTy).Contents (Elt F) → (⟨S32x200x64x1, .f32⟩ : BufTy).Contents (Elt F)),
    StableHlo.binary main_v1 main_v2 main_v3 (Host.divf : (⟨S32x200x64x1, .f32⟩ : BufTy).Contents (Elt F) → (⟨S32x200x64x1, .f32⟩ : BufTy).Contents (Elt F) → (⟨S32x200x64x1, .f32⟩ : BufTy).Contents (Elt F)),
    StableHlo.unary main_v3 main_v4 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_arg0 main_v4 main_v5 (subf : (⟨S32x200x64x128, .f32⟩ : BufTy).Contents (Elt F) → (⟨S32x200x64x128, .f32⟩ : BufTy).Contents (Elt F) → (⟨S32x200x64x128, .f32⟩ : BufTy).Contents (Elt F)),
    StableHlo.nullary main_c (constantI S_ 32 1#32) ]

/-- The buffers stage A writes. -/
abbrev opsA_W : List (Ref sig .tc) :=
  [main_cst, main_v0, main_v1, main_cst_0, main_v2, main_v3, main_v4, main_v5, main_c]

theorem opsA_writes : (opsA : List (HloOp τ sig (Elt F))).Forall fun op =>
    op.writes ⊆ (opsA_W.map (Proc.devRef (τ := τ) .tc)).toFinset :=
  ⟨w!, w!, w!, w!, w!, w!, w!, w!, w!⟩

/-- A buffer stage A does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- No argument buffer is written by stage A. -/
theorem argsA : ∀ r ∈ argRefs, r ∉ opsA_W := by decide

/-! ### Stage B: operations 10 … 33 -/

/-- The standard deviation: the variance with correction 1 (mean, centring, squares, their sum over the divisor, selected where the divisor is positive), then the square root. -/
abbrev opsB : List (HloOp τ sig (Elt F)) :=
  [ StableHlo.TRef.nullary main_call0.call0.cst (constant S_ .f32 0x00000000#32),
    StableHlo.TRef.binary (.of main_arg0) main_call0.call0.cst main_call0.call0.v0 (fun x v => Host.reduceAdd x v reducesTo_S32x200x64x128_S32x200x64_d3 h_S_),
    StableHlo.TRef.unary main_call0.call0.v0 main_call0.call0.v1 (broadcastInDim S32x200x64x1 ![0, 1, 2] bcast_S32x200x64_S32x200x64x1_0_1_2),
    StableHlo.TRef.nullary main_call0.call0.cst_0 (constant S_ .f32 0x43000000#32),
    StableHlo.TRef.unary main_call0.call0.cst_0 main_call0.call0.v2 (broadcastInDim S32x200x64x1 ![] bcast_S_S32x200x64x1),
    StableHlo.TRef.binary main_call0.call0.v1 main_call0.call0.v2 main_call0.call0.v3 Host.divf,
    StableHlo.TRef.unary main_call0.call0.v3 main_call0.call0.v4 (broadcastInDim S32x200x64x128 ![0, 1, 2, 3] bcast_S32x200x64x1_S32x200x64x128_0_1_2_3),
    StableHlo.TRef.binary (.of main_arg0) main_call0.call0.v4 main_call0.call0.v5 subf,
    StableHlo.TRef.binary main_call0.call0.v5 main_call0.call0.v5 main_call0.call0.v6 mulf,
    StableHlo.TRef.unary (.of main_c) main_call0.call0.v7 (sitofp .f32),
    StableHlo.TRef.nullary main_call0.call0.cst_1 (constant S_ .f32 0x43000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S32x200x64x128_S32x200x64_d3 h_S_),
    StableHlo.TRef.unary main_call0.call0.v9 main_call0.call0.v10 (broadcastInDim S32x200x64x1 ![0, 1, 2] bcast_S32x200x64_S32x200x64x1_0_1_2),
    StableHlo.TRef.unary main_call0.call0.v8 main_call0.call0.v11 (broadcastInDim S32x200x64x1 ![] bcast_S_S32x200x64x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S32x200x64x1 ![] bcast_S_S32x200x64x1),
    StableHlo.TRef.ternary main_call0.call0.v13 main_call0.call0.v12 main_call0.call0.call0.v1 main_call0.call0.call0.v2 (fun p a b => select (broadcastInDim S32x200x64x1 ![] bcast_S_S32x200x64x1 p) a b),
    StableHlo.TRef.unary main_call0.call0.call0.v2 main_call0.v1 Host.sqrt ]

/-- The same operations over the plain buffers the call's record names. -/
abbrev opsB' : List (HloOp τ sig (Elt F)) :=
  [ nullary main_call0_call0_cst (constant S_ .f32 0x00000000#32),
    binary main_arg0 main_call0_call0_cst main_call0_call0_v0 (fun x v => Host.reduceAdd x v reducesTo_S32x200x64x128_S32x200x64_d3 h_S_),
    unary main_call0_call0_v0 main_call0_call0_v1 (broadcastInDim S32x200x64x1 ![0, 1, 2] bcast_S32x200x64_S32x200x64x1_0_1_2),
    nullary main_call0_call0_cst_0 (constant S_ .f32 0x43000000#32),
    unary main_call0_call0_cst_0 main_call0_call0_v2 (broadcastInDim S32x200x64x1 ![] bcast_S_S32x200x64x1),
    binary main_call0_call0_v1 main_call0_call0_v2 main_call0_call0_v3 Host.divf,
    unary main_call0_call0_v3 main_call0_call0_v4 (broadcastInDim S32x200x64x128 ![0, 1, 2, 3] bcast_S32x200x64x1_S32x200x64x128_0_1_2_3),
    binary main_arg0 main_call0_call0_v4 main_call0_call0_v5 subf,
    binary main_call0_call0_v5 main_call0_call0_v5 main_call0_call0_v6 mulf,
    unary main_c main_call0_call0_v7 (sitofp .f32),
    nullary main_call0_call0_cst_1 (constant S_ .f32 0x43000000#32),
    binary main_call0_call0_cst_1 main_call0_call0_v7 main_call0_call0_v8 subf,
    nullary main_call0_call0_cst_2 (constant S_ .f32 0x00000000#32),
    binary main_call0_call0_v6 main_call0_call0_cst_2 main_call0_call0_v9 (fun x v => Host.reduceAdd x v reducesTo_S32x200x64x128_S32x200x64_d3 h_S_),
    unary main_call0_call0_v9 main_call0_call0_v10 (broadcastInDim S32x200x64x1 ![0, 1, 2] bcast_S32x200x64_S32x200x64x1_0_1_2),
    unary main_call0_call0_v8 main_call0_call0_v11 (broadcastInDim S32x200x64x1 ![] bcast_S_S32x200x64x1),
    binary main_call0_call0_v10 main_call0_call0_v11 main_call0_call0_v12 Host.divf,
    nullary main_call0_call0_cst_3 (constant S_ .f32 0x00000000#32),
    binary main_call0_call0_v8 main_call0_call0_cst_3 main_call0_call0_v13 (cmpf .ogt),
    nullary main_call0_call0_cst_4 (constant S_ .f32 0x7FC00000#32),
    unary main_call0_call0_cst_4 main_call0_call0_call0_v0 id,
    unary main_call0_call0_call0_v0 main_call0_call0_call0_v1 (broadcastInDim S32x200x64x1 ![] bcast_S_S32x200x64x1),
    ternary main_call0_call0_v13 main_call0_call0_v12 main_call0_call0_call0_v1 main_call0_v0 (fun p a b => select (broadcastInDim S32x200x64x1 ![] bcast_S_S32x200x64x1 p) a b),
    unary main_call0_v0 main_v6 Host.sqrt ]

/-- The two spellings are one list: a typed reference at a literal buffer carries its contents unchanged. -/
theorem opsB_plain : (opsB : List (HloOp τ sig (Elt F))) = opsB' := rfl

/-- The buffers stage B writes. -/
abbrev opsB_W : List (Ref sig .tc) :=
  [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v0, main_v6]

theorem opsB_writes : (opsB : List (HloOp τ sig (Elt F))).Forall fun op =>
    op.writes ⊆ (opsB_W.map (Proc.devRef (τ := τ) .tc)).toFinset :=
  ⟨w!, w!, w!, w!, w!, w!, w!, w!, w!, w!, w!, w!, w!, w!, w!, w!, w!, w!, w!, w!, w!, w!, w!, w!⟩

/-- A buffer stage B does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- No argument buffer is written by stage B. -/
theorem argsB : ∀ r ∈ argRefs, r ∉ opsB_W := by decide

/-! ### Stage C: operations 34 … 38 -/

/-- The normalised array: the centred one over the standard deviation plus ε₁. -/
abbrev opsC : List (HloOp τ sig (Elt F)) :=
  [ StableHlo.nullary main_cst_1 (constant S_ .f32 0x358637BD#32),
    StableHlo.unary main_cst_1 main_v7 (broadcastInDim S32x200x64x1 ![] bcast_S_S32x200x64x1 : (⟨S_, .f32⟩ : BufTy).Contents (Elt F) → (⟨S32x200x64x1, .f32⟩ : BufTy).Contents (Elt F)),
    StableHlo.binary main_v6 main_v7 main_v8 (addf : (⟨S32x200x64x1, .f32⟩ : BufTy).Contents (Elt F) → (⟨S32x200x64x1, .f32⟩ : BufTy).Contents (Elt F) → (⟨S32x200x64x1, .f32⟩ : BufTy).Contents (Elt F)),
    StableHlo.unary main_v8 main_v9 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v5 main_v9 main_v10 (Host.divf : (⟨S32x200x64x128, .f32⟩ : BufTy).Contents (Elt F) → (⟨S32x200x64x128, .f32⟩ : BufTy).Contents (Elt F) → (⟨S32x200x64x128, .f32⟩ : BufTy).Contents (Elt F)) ]

/-- The buffers stage C writes. -/
abbrev opsC_W : List (Ref sig .tc) :=
  [main_cst_1, main_v7, main_v8, main_v9, main_v10]

theorem opsC_writes : (opsC : List (HloOp τ sig (Elt F))).Forall fun op =>
    op.writes ⊆ (opsC_W.map (Proc.devRef (τ := τ) .tc)).toFinset :=
  ⟨w!, w!, w!, w!, w!⟩

/-- A buffer stage C does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- No argument buffer is written by stage C. -/
theorem argsC : ∀ r ∈ argRefs, r ∉ opsC_W := by decide

/-! ### Stage D: operations 39 … 42 -/

/-- The correlations of the nodes of each window, over 128. -/
abbrev opsD : List (HloOp τ sig (Elt F)) :=
  [ StableHlo.binary main_v10 main_v10 main_v11 ((fun l r => Host.dotGeneral dot_S32x200x64x128_S32x200x64x128_S32x200x64x64_3_3_2_2_01_01 none l r) : (⟨S32x200x64x128, .f32⟩ : BufTy).Contents (Elt F) → (⟨S32x200x64x128, .f32⟩ : BufTy).Contents (Elt F) → (⟨S32x200x64x64, .f32⟩ : BufTy).Contents (Elt F)),
    StableHlo.nullary main_cst_2 (constant S_ .f32 0x43000000#32),
    StableHlo.unary main_cst_2 main_v12 (broadcastInDim S32x200x64x64 ![] bcast_S_S32x200x64x64 : (⟨S_, .f32⟩ : BufTy).Contents (Elt F) → (⟨S32x200x64x64, .f32⟩ : BufTy).Contents (Elt F)),
    StableHlo.binary main_v11 main_v12 main_v13 (Host.divf : (⟨S32x200x64x64, .f32⟩ : BufTy).Contents (Elt F) → (⟨S32x200x64x64, .f32⟩ : BufTy).Contents (Elt F) → (⟨S32x200x64x64, .f32⟩ : BufTy).Contents (Elt F)) ]

/-- The buffers stage D writes. -/
abbrev opsD_W : List (Ref sig .tc) :=
  [main_v11, main_cst_2, main_v12, main_v13]

theorem opsD_writes : (opsD : List (HloOp τ sig (Elt F))).Forall fun op =>
    op.writes ⊆ (opsD_W.map (Proc.devRef (τ := τ) .tc)).toFinset :=
  ⟨w!, w!, w!, w!⟩

/-- A buffer stage D does not write keeps its contents through it. -/
theorem keepD (V : Valuation τ sig (Elt F)) (r : Ref sig .tc) (h : r ∉ opsD_W) :
    after opsD V (Proc.devRef .tc r) = V (Proc.devRef .tc r) :=
  after_of_writes_sub opsD V opsD_writes h

/-- No argument buffer is written by stage D. -/
theorem argsD : ∀ r ∈ argRefs, r ∉ opsD_W := by decide

/-! ### Stage E: operations 43 … 51 -/

/-- The row maxima and the exponentials of the softmax. -/
abbrev opsE : List (HloOp τ sig (Elt F)) :=
  [ StableHlo.nullary main_cst_3 (constant S_ .f32 0xFF800000#32),
    StableHlo.binary main_v13 main_cst_3 main_v14 ((fun x v => Host.reduce FloatOps.maximumf x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    StableHlo.nullary main_cst_4 (constant S_ .f32 0xFF800000#32),
    StableHlo.unary main_cst_4 main_v15 (broadcastInDim S32x200x64 ![] bcast_S_S32x200x64 : (⟨S_, .f32⟩ : BufTy).Contents (Elt F) → (⟨S32x200x64, .f32⟩ : BufTy).Contents (Elt F)),
    StableHlo.binary main_v15 main_v14 main_v16 (maximumf : (⟨S32x200x64, .f32⟩ : BufTy).Contents (Elt F) → (⟨S32x200x64, .f32⟩ : BufTy).Contents (Elt F) → (⟨S32x200x64, .f32⟩ : BufTy).Contents (Elt F)),
    StableHlo.unary main_v16 main_v17 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.unary main_v17 main_v18 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    StableHlo.binary main_v13 main_v18 main_v19 (subf : (⟨S32x200x64x64, .f32⟩ : BufTy).Contents (Elt F) → (⟨S32x200x64x64, .f32⟩ : BufTy).Contents (Elt F) → (⟨S32x200x64x64, .f32⟩ : BufTy).Contents (Elt F)),
    StableHlo.unary main_v19 main_v20 (Host.exp : (⟨S32x200x64x64, .f32⟩ : BufTy).Contents (Elt F) → (⟨S32x200x64x64, .f32⟩ : BufTy).Contents (Elt F)) ]

/-- The buffers stage E writes. -/
abbrev opsE_W : List (Ref sig .tc) :=
  [main_cst_3, main_v14, main_cst_4, main_v15, main_v16, main_v17, main_v18, main_v19, main_v20]

theorem opsE_writes : (opsE : List (HloOp τ sig (Elt F))).Forall fun op =>
    op.writes ⊆ (opsE_W.map (Proc.devRef (τ := τ) .tc)).toFinset :=
  ⟨w!, w!, w!, w!, w!, w!, w!, w!, w!⟩

/-- A buffer stage E does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

/-- No argument buffer is written by stage E. -/
theorem argsE : ∀ r ∈ argRefs, r ∉ opsE_W := by decide

/-! ### Stage F: operations 52 … 56 -/

/-- The row sums of the exponentials and the softmax weights. -/
abbrev opsF : List (HloOp τ sig (Elt F)) :=
  [ StableHlo.nullary main_cst_5 (constant S_ .f32 0x00000000#32),
    StableHlo.binary main_v20 main_cst_5 main_v21 ((fun x v => Host.reduceAdd x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    StableHlo.unary main_v21 main_v22 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.unary main_v22 main_v23 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    StableHlo.binary main_v20 main_v23 main_v24 (Host.divf : (⟨S32x200x64x64, .f32⟩ : BufTy).Contents (Elt F) → (⟨S32x200x64x64, .f32⟩ : BufTy).Contents (Elt F) → (⟨S32x200x64x64, .f32⟩ : BufTy).Contents (Elt F)) ]

/-- The buffers stage F writes. -/
abbrev opsF_W : List (Ref sig .tc) :=
  [main_cst_5, main_v21, main_v22, main_v23, main_v24]

theorem opsF_writes : (opsF : List (HloOp τ sig (Elt F))).Forall fun op =>
    op.writes ⊆ (opsF_W.map (Proc.devRef (τ := τ) .tc)).toFinset :=
  ⟨w!, w!, w!, w!, w!⟩

/-- A buffer stage F does not write keeps its contents through it. -/
theorem keepF (V : Valuation τ sig (Elt F)) (r : Ref sig .tc) (h : r ∉ opsF_W) :
    after opsF V (Proc.devRef .tc r) = V (Proc.devRef .tc r) :=
  after_of_writes_sub opsF V opsF_writes h

/-- No argument buffer is written by stage F. -/
theorem argsF : ∀ r ∈ argRefs, r ∉ opsF_W := by decide

/-! ### Stage G: operations 57 … 61 -/

/-- The linear image of every node and its aggregation under the weights. -/
abbrev opsG : List (HloOp τ sig (Elt F)) :=
  [ StableHlo.binary main_arg0 main_arg1 main_v25 ((fun l r => Host.dotGeneral dot_S32x200x64x128_S128x128_S32x200x64x128_3_1_012_0_n_n none l r) : (⟨S32x200x64x128, .f32⟩ : BufTy).Contents (Elt F) → (⟨S128x128, .f32⟩ : BufTy).Contents (Elt F) → (⟨S32x200x64x128, .f32⟩ : BufTy).Contents (Elt F)),
    StableHlo.unary main_arg2 main_v26 (broadcastInDim S1x1x1x128 ![3] bcast_S128_S1x1x1x128_3 : (⟨S128, .f32⟩ : BufTy).Contents (Elt F) → (⟨S1x1x1x128, .f32⟩ : BufTy).Contents (Elt F)),
    StableHlo.unary main_v26 main_v27 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v25 main_v27 main_v28 (addf : (⟨S32x200x64x128, .f32⟩ : BufTy).Contents (Elt F) → (⟨S32x200x64x128, .f32⟩ : BufTy).Contents (Elt F) → (⟨S32x200x64x128, .f32⟩ : BufTy).Contents (Elt F)),
    StableHlo.binary main_v24 main_v28 main_v29 ((fun l r => Host.dotGeneral dot_S32x200x64x64_S32x200x64x128_S32x200x64x128_3_2_2_3_01_01 none l r) : (⟨S32x200x64x64, .f32⟩ : BufTy).Contents (Elt F) → (⟨S32x200x64x128, .f32⟩ : BufTy).Contents (Elt F) → (⟨S32x200x64x128, .f32⟩ : BufTy).Contents (Elt F)) ]

/-- The buffers stage G writes. -/
abbrev opsG_W : List (Ref sig .tc) :=
  [main_v25, main_v26, main_v27, main_v28, main_v29]

theorem opsG_writes : (opsG : List (HloOp τ sig (Elt F))).Forall fun op =>
    op.writes ⊆ (opsG_W.map (Proc.devRef (τ := τ) .tc)).toFinset :=
  ⟨w!, w!, w!, w!, w!⟩

/-- A buffer stage G does not write keeps its contents through it. -/
theorem keepG (V : Valuation τ sig (Elt F)) (r : Ref sig .tc) (h : r ∉ opsG_W) :
    after opsG V (Proc.devRef .tc r) = V (Proc.devRef .tc r) :=
  after_of_writes_sub opsG V opsG_writes h

/-- No argument buffer is written by stage G. -/
theorem argsG : ∀ r ∈ argRefs, r ∉ opsG_W := by decide

/-! ### Stage I: operations 62 … 68 -/

/-- The mean of the aggregate over its outputs; the correction 0 of the second variance. -/
abbrev opsI : List (HloOp τ sig (Elt F)) :=
  [ StableHlo.nullary main_cst_6 (constant S_ .f32 0x00000000#32),
    StableHlo.binary main_v29 main_cst_6 main_v30 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    StableHlo.unary main_v30 main_v31 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    StableHlo.nullary main_cst_7 (constant S_ .f32 0x43000000#32),
    StableHlo.unary main_cst_7 main_v32 (broadcastInDim S32x200x64x1 ![] bcast_S_S32x200x64x1 : (⟨S_, .f32⟩ : BufTy).Contents (Elt F) → (⟨S32x200x64x1, .f32⟩ : BufTy).Contents (Elt F)),
    StableHlo.binary main_v31 main_v32 main_v33 (Host.divf : (⟨S32x200x64x1, .f32⟩ : BufTy).Contents (Elt F) → (⟨S32x200x64x1, .f32⟩ : BufTy).Contents (Elt F) → (⟨S32x200x64x1, .f32⟩ : BufTy).Contents (Elt F)),
    StableHlo.nullary main_c_8 (constantI S_ 32 0#32) ]

/-- The buffers stage I writes. -/
abbrev opsI_W : List (Ref sig .tc) :=
  [main_cst_6, main_v30, main_v31, main_cst_7, main_v32, main_v33, main_c_8]

theorem opsI_writes : (opsI : List (HloOp τ sig (Elt F))).Forall fun op =>
    op.writes ⊆ (opsI_W.map (Proc.devRef (τ := τ) .tc)).toFinset :=
  ⟨w!, w!, w!, w!, w!, w!, w!⟩

/-- A buffer stage I does not write keeps its contents through it. -/
theorem keepI (V : Valuation τ sig (Elt F)) (r : Ref sig .tc) (h : r ∉ opsI_W) :
    after opsI V (Proc.devRef .tc r) = V (Proc.devRef .tc r) :=
  after_of_writes_sub opsI V opsI_writes h

/-- No argument buffer is written by stage I. -/
theorem argsI : ∀ r ∈ argRefs, r ∉ opsI_W := by decide

/-! ### Stage J: operations 69 … 91 -/

/-- The variance of the aggregate with correction 0. -/
abbrev opsJ : List (HloOp τ sig (Elt F)) :=
  [ StableHlo.TRef.nullary main_call1.cst (constant S_ .f32 0x00000000#32),
    StableHlo.TRef.binary (.of main_v29) main_call1.cst main_call1.v0 (fun x v => Host.reduceAdd x v reducesTo_S32x200x64x128_S32x200x64_d3 h_S_),
    StableHlo.TRef.unary main_call1.v0 main_call1.v1 (broadcastInDim S32x200x64x1 ![0, 1, 2] bcast_S32x200x64_S32x200x64x1_0_1_2),
    StableHlo.TRef.nullary main_call1.cst_0 (constant S_ .f32 0x43000000#32),
    StableHlo.TRef.unary main_call1.cst_0 main_call1.v2 (broadcastInDim S32x200x64x1 ![] bcast_S_S32x200x64x1),
    StableHlo.TRef.binary main_call1.v1 main_call1.v2 main_call1.v3 Host.divf,
    StableHlo.TRef.unary main_call1.v3 main_call1.v4 (broadcastInDim S32x200x64x128 ![0, 1, 2, 3] bcast_S32x200x64x1_S32x200x64x128_0_1_2_3),
    StableHlo.TRef.binary (.of main_v29) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32x200x64x128_S32x200x64_d3 h_S_),
    StableHlo.TRef.unary main_call1.v9 main_call1.v10 (broadcastInDim S32x200x64x1 ![0, 1, 2] bcast_S32x200x64_S32x200x64x1_0_1_2),
    StableHlo.TRef.unary main_call1.v8 main_call1.v11 (broadcastInDim S32x200x64x1 ![] bcast_S_S32x200x64x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32x200x64x1 ![] bcast_S_S32x200x64x1),
    StableHlo.TRef.ternary main_call1.v13 main_call1.v12 main_call1.call0.v1 main_call1.call0.v2 (fun p a b => select (broadcastInDim S32x200x64x1 ![] bcast_S_S32x200x64x1 p) a b) ]

/-- The same operations over the plain buffers the call's record names. -/
abbrev opsJ' : List (HloOp τ sig (Elt F)) :=
  [ nullary main_call1_cst (constant S_ .f32 0x00000000#32),
    binary main_v29 main_call1_cst main_call1_v0 (fun x v => Host.reduceAdd x v reducesTo_S32x200x64x128_S32x200x64_d3 h_S_),
    unary main_call1_v0 main_call1_v1 (broadcastInDim S32x200x64x1 ![0, 1, 2] bcast_S32x200x64_S32x200x64x1_0_1_2),
    nullary main_call1_cst_0 (constant S_ .f32 0x43000000#32),
    unary main_call1_cst_0 main_call1_v2 (broadcastInDim S32x200x64x1 ![] bcast_S_S32x200x64x1),
    binary main_call1_v1 main_call1_v2 main_call1_v3 Host.divf,
    unary main_call1_v3 main_call1_v4 (broadcastInDim S32x200x64x128 ![0, 1, 2, 3] bcast_S32x200x64x1_S32x200x64x128_0_1_2_3),
    binary main_v29 main_call1_v4 main_call1_v5 subf,
    binary main_call1_v5 main_call1_v5 main_call1_v6 mulf,
    unary main_c_8 main_call1_v7 (sitofp .f32),
    nullary main_call1_cst_1 (constant S_ .f32 0x43000000#32),
    binary main_call1_cst_1 main_call1_v7 main_call1_v8 subf,
    nullary main_call1_cst_2 (constant S_ .f32 0x00000000#32),
    binary main_call1_v6 main_call1_cst_2 main_call1_v9 (fun x v => Host.reduceAdd x v reducesTo_S32x200x64x128_S32x200x64_d3 h_S_),
    unary main_call1_v9 main_call1_v10 (broadcastInDim S32x200x64x1 ![0, 1, 2] bcast_S32x200x64_S32x200x64x1_0_1_2),
    unary main_call1_v8 main_call1_v11 (broadcastInDim S32x200x64x1 ![] bcast_S_S32x200x64x1),
    binary main_call1_v10 main_call1_v11 main_call1_v12 Host.divf,
    nullary main_call1_cst_3 (constant S_ .f32 0x00000000#32),
    binary main_call1_v8 main_call1_cst_3 main_call1_v13 (cmpf .ogt),
    nullary main_call1_cst_4 (constant S_ .f32 0x7FC00000#32),
    unary main_call1_cst_4 main_call1_call0_v0 id,
    unary main_call1_call0_v0 main_call1_call0_v1 (broadcastInDim S32x200x64x1 ![] bcast_S_S32x200x64x1),
    ternary main_call1_v13 main_call1_v12 main_call1_call0_v1 main_v34 (fun p a b => select (broadcastInDim S32x200x64x1 ![] bcast_S_S32x200x64x1 p) a b) ]

/-- The two spellings are one list: a typed reference at a literal buffer carries its contents unchanged. -/
theorem opsJ_plain : (opsJ : List (HloOp τ sig (Elt F))) = opsJ' := rfl

/-- The buffers stage J writes. -/
abbrev opsJ_W : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v34]

theorem opsJ_writes : (opsJ : List (HloOp τ sig (Elt F))).Forall fun op =>
    op.writes ⊆ (opsJ_W.map (Proc.devRef (τ := τ) .tc)).toFinset :=
  ⟨w!, w!, w!, w!, w!, w!, w!, w!, w!, w!, w!, w!, w!, w!, w!, w!, w!, w!, w!, w!, w!, w!, w!⟩

/-- A buffer stage J does not write keeps its contents through it. -/
theorem keepJ (V : Valuation τ sig (Elt F)) (r : Ref sig .tc) (h : r ∉ opsJ_W) :
    after opsJ V (Proc.devRef .tc r) = V (Proc.devRef .tc r) :=
  after_of_writes_sub opsJ V opsJ_writes h

/-- No argument buffer is written by stage J. -/
theorem argsJ : ∀ r ∈ argRefs, r ∉ opsJ_W := by decide

/-! ### Stage K: operations 92 … 105 -/

/-- The layer normalisation of the aggregate: centred, times the reciprocal root of variance plus ε₂, scaled and shifted. -/
abbrev opsK : List (HloOp τ sig (Elt F)) :=
  [ StableHlo.unary main_v33 main_v35 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v29 main_v35 main_v36 (subf : (⟨S32x200x64x128, .f32⟩ : BufTy).Contents (Elt F) → (⟨S32x200x64x128, .f32⟩ : BufTy).Contents (Elt F) → (⟨S32x200x64x128, .f32⟩ : BufTy).Contents (Elt F)),
    StableHlo.nullary main_cst_9 (constant S_ .f32 0x3727C5AC#32),
    StableHlo.unary main_cst_9 main_v37 (broadcastInDim S32x200x64x1 ![] bcast_S_S32x200x64x1 : (⟨S_, .f32⟩ : BufTy).Contents (Elt F) → (⟨S32x200x64x1, .f32⟩ : BufTy).Contents (Elt F)),
    StableHlo.binary main_v34 main_v37 main_v38 (addf : (⟨S32x200x64x1, .f32⟩ : BufTy).Contents (Elt F) → (⟨S32x200x64x1, .f32⟩ : BufTy).Contents (Elt F) → (⟨S32x200x64x1, .f32⟩ : BufTy).Contents (Elt F)),
    StableHlo.unary main_v38 main_v39 (Host.rsqrt : (⟨S32x200x64x1, .f32⟩ : BufTy).Contents (Elt F) → (⟨S32x200x64x1, .f32⟩ : BufTy).Contents (Elt F)),
    StableHlo.unary main_v39 main_v40 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    StableHlo.binary main_v36 main_v40 main_v41 (mulf : (⟨S32x200x64x128, .f32⟩ : BufTy).Contents (Elt F) → (⟨S32x200x64x128, .f32⟩ : BufTy).Contents (Elt F) → (⟨S32x200x64x128, .f32⟩ : BufTy).Contents (Elt F)),
    StableHlo.unary main_arg3 main_v42 (broadcastInDim S1x1x1x128 ![3] bcast_S128_S1x1x1x128_3 : (⟨S128, .f32⟩ : BufTy).Contents (Elt F) → (⟨S1x1x1x128, .f32⟩ : BufTy).Contents (Elt F)),
    StableHlo.unary main_v42 main_v43 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v41 main_v43 main_v44 (mulf : (⟨S32x200x64x128, .f32⟩ : BufTy).Contents (Elt F) → (⟨S32x200x64x128, .f32⟩ : BufTy).Contents (Elt F) → (⟨S32x200x64x128, .f32⟩ : BufTy).Contents (Elt F)),
    StableHlo.unary main_arg4 main_v45 (broadcastInDim S1x1x1x128 ![3] bcast_S128_S1x1x1x128_3 : (⟨S128, .f32⟩ : BufTy).Contents (Elt F) → (⟨S1x1x1x128, .f32⟩ : BufTy).Contents (Elt F)),
    StableHlo.unary main_v45 main_v46 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    StableHlo.binary main_v44 main_v46 main_v47 (addf : (⟨S32x200x64x128, .f32⟩ : BufTy).Contents (Elt F) → (⟨S32x200x64x128, .f32⟩ : BufTy).Contents (Elt F) → (⟨S32x200x64x128, .f32⟩ : BufTy).Contents (Elt F)) ]

/-- The buffers stage K writes. -/
abbrev opsK_W : List (Ref sig .tc) :=
  [main_v35, main_v36, main_cst_9, main_v37, main_v38, main_v39, main_v40, main_v41, main_v42, main_v43, main_v44, main_v45, main_v46, main_v47]

theorem opsK_writes : (opsK : List (HloOp τ sig (Elt F))).Forall fun op =>
    op.writes ⊆ (opsK_W.map (Proc.devRef (τ := τ) .tc)).toFinset :=
  ⟨w!, w!, w!, w!, w!, w!, w!, w!, w!, w!, w!, w!, w!, w!⟩

/-- A buffer stage K does not write keeps its contents through it. -/
theorem keepK (V : Valuation τ sig (Elt F)) (r : Ref sig .tc) (h : r ∉ opsK_W) :
    after opsK V (Proc.devRef .tc r) = V (Proc.devRef .tc r) :=
  after_of_writes_sub opsK V opsK_writes h

/-- No argument buffer is written by stage K. -/
theorem argsK : ∀ r ∈ argRefs, r ∉ opsK_W := by decide

/-! ### Stage L: operations 106 … 108 -/

/-- The positive part. -/
abbrev opsL : List (HloOp τ sig (Elt F)) :=
  [ StableHlo.TRef.nullary main_call2.cst (constant S_ .f32 0x00000000#32),
    StableHlo.TRef.unary main_call2.cst main_call2.v0 (broadcastInDim S32x200x64x128 ![] bcast_S_S32x200x64x128),
    StableHlo.TRef.binary (.of main_v47) main_call2.v0 main_call2.v1 maximumf ]

/-- The same operations over the plain buffers the call's record names. -/
abbrev opsL' : List (HloOp τ sig (Elt F)) :=
  [ nullary main_call2_cst (constant S_ .f32 0x00000000#32),
    unary main_call2_cst main_call2_v0 (broadcastInDim S32x200x64x128 ![] bcast_S_S32x200x64x128),
    binary main_v47 main_call2_v0 main_v48 maximumf ]

/-- The two spellings are one list: a typed reference at a literal buffer carries its contents unchanged. -/
theorem opsL_plain : (opsL : List (HloOp τ sig (Elt F))) = opsL' := rfl

/-- The buffers stage L writes. -/
abbrev opsL_W : List (Ref sig .tc) :=
  [main_call2_cst, main_call2_v0, main_v48]

theorem opsL_writes : (opsL : List (HloOp τ sig (Elt F))).Forall fun op =>
    op.writes ⊆ (opsL_W.map (Proc.devRef (τ := τ) .tc)).toFinset :=
  ⟨w!, w!, w!⟩

/-- A buffer stage L does not write keeps its contents through it. -/
theorem keepL (V : Valuation τ sig (Elt F)) (r : Ref sig .tc) (h : r ∉ opsL_W) :
    after opsL V (Proc.devRef .tc r) = V (Proc.devRef .tc r) :=
  after_of_writes_sub opsL V opsL_writes h

/-- No argument buffer is written by stage L. -/
theorem argsL : ∀ r ∈ argRefs, r ∉ opsL_W := by decide

end Cert.ReferenceIdeal.RefRun

end
-- ==== Proof.RefTerm.lean ====
/-
  The reference program's result as one pure term of its five argument arrays: the composition of its
  host operations, stage by stage, over arrays of shape [32, 200, 64, ·].  The stages follow the
  program's own order: mean and centring over the last axis, the variance as the outlined function
  computes it (the divisor is 128 minus the correction, and the quotient is selected only where that
  divisor is positive), normalisation, the batched correlation and its softmax, the linear map, the
  weighted aggregation, the layer normalisation and the positive part.
-/
import proofs.«115721_j65403761983862_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- A scalar spread over the keep-dimension column shape. -/
def col (s : FVec F S_ .f32) : FVec F S32x200x64x1 .f32 :=
  broadcastInDim S32x200x64x1 ![] bcast_S_S32x200x64x1 s
/-- A reduced array given back its unit last axis. -/
def keep (v : FVec F S32x200x64 .f32) : FVec F S32x200x64x1 .f32 :=
  broadcastInDim S32x200x64x1 ![0, 1, 2] bcast_S32x200x64_S32x200x64x1_0_1_2 v
/-- A column spread over 128 features. -/
def wide (v : FVec F S32x200x64x1 .f32) : FVec F S32x200x64x128 .f32 :=
  broadcastInDim S32x200x64x128 ![0, 1, 2, 3] bcast_S32x200x64x1_S32x200x64x128_0_1_2_3 v
/-- A column spread over 64 nodes. -/
def wide64 (v : FVec F S32x200x64x1 .f32) : FVec F S32x200x64x64 .f32 :=
  broadcastInDim S32x200x64x64 ![0, 1, 2, 3] bcast_S32x200x64x1_S32x200x64x64_0_1_2_3 v
/-- A feature vector spread over every node of every window. -/
def feat (v : FVec F S128 .f32) : FVec F S32x200x64x128 .f32 :=
  broadcastInDim S32x200x64x128 ![0, 1, 2, 3] bcast_S1x1x1x128_S32x200x64x128_0_1_2_3
    (broadcastInDim S1x1x1x128 ![3] bcast_S128_S1x1x1x128_3 v)
/-- The sum over the last axis, keeping it as a unit axis. -/
def rowSum (x : FVec F S32x200x64x128 .f32) : FVec F S32x200x64x1 .f32 :=
  keep (Host.reduceAdd x (constant S_ .f32 0x00000000#32) reducesTo_S32x200x64x128_S32x200x64_d3 h_S_)
/-- The mean over the last axis. -/
def mean (x : FVec F S32x200x64x128 .f32) : FVec F S32x200x64x1 .f32 :=
  Host.divf (rowSum x) (col (constant S_ .f32 0x43000000#32))
/-- The array minus its mean. -/
def centered (x : FVec F S32x200x64x128 .f32) : FVec F S32x200x64x128 .f32 :=
  subf x (wide (mean x))
/-- The divisor of the variance: 128 minus the correction. -/
def divisor (c : IVec S_ 32) : FVec F S_ .f32 :=
  subf (constant S_ .f32 0x43000000#32) (sitofp .f32 c)
/-- The variance over the last axis with correction `c`: the sum of squares over the divisor where the
    divisor is positive, the not-a-number pattern elsewhere. -/
def variance (x : FVec F S32x200x64x128 .f32) (c : IVec S_ 32) : FVec F S32x200x64x1 .f32 :=
  select (broadcastInDim S32x200x64x1 ![] bcast_S_S32x200x64x1 (cmpf .ogt (divisor (F := F) c) (constant S_ .f32 0x00000000#32)))
    (Host.divf (rowSum (mulf (centered x) (centered x))) (col (divisor c)))
    (col (id (constant S_ .f32 0x7FC00000#32)))
/-- The normalised array: centred, over standard deviation plus ε₁. -/
def xnorm (x : FVec F S32x200x64x128 .f32) : FVec F S32x200x64x128 .f32 :=
  Host.divf (centered x)
    (wide (addf (Host.sqrt (variance x (constantI S_ 32 1#32))) (col (constant S_ .f32 0x358637BD#32))))
/-- The correlations of the nodes of each window. -/
def corr (x : FVec F S32x200x64x128 .f32) : FVec F S32x200x64x64 .f32 :=
  Host.divf (Host.dotGeneral dot_S32x200x64x128_S32x200x64x128_S32x200x64x64_3_3_2_2_01_01 none (xnorm x) (xnorm x))
    (broadcastInDim S32x200x64x64 ![] bcast_S_S32x200x64x64 (constant S_ .f32 0x43000000#32))
/-- The row maximum, started from -∞ and joined with -∞ once more. -/
def rowMax (y : FVec F S32x200x64x64 .f32) : FVec F S32x200x64x1 .f32 :=
  keep (maximumf (broadcastInDim S32x200x64 ![] bcast_S_S32x200x64 (constant S_ .f32 0xFF800000#32))
    (Host.reduce FloatOps.maximumf y (constant S_ .f32 0xFF800000#32) reducesTo_S32x200x64x64_S32x200x64_d3 h_S_))
/-- The exponentials of the softmax. -/
def expo (x : FVec F S32x200x64x128 .f32) : FVec F S32x200x64x64 .f32 :=
  Host.exp (subf (corr x) (wide64 (rowMax (corr x))))
/-- The softmax weights. -/
def weights (x : FVec F S32x200x64x128 .f32) : FVec F S32x200x64x64 .f32 :=
  Host.divf (expo x)
    (wide64 (keep (Host.reduceAdd (expo x) (constant S_ .f32 0x00000000#32) reducesTo_S32x200x64x64_S32x200x64_d3 h_S_)))
/-- The linear image of every node. -/
def linear (x : FVec F S32x200x64x128 .f32) (W : FVec F S128x128 .f32) (b : FVec F S128 .f32) : FVec F S32x200x64x128 .f32 :=
  addf (Host.dotGeneral dot_S32x200x64x128_S128x128_S32x200x64x128_3_1_012_0_n_n none x W) (feat b)
/-- The weighted aggregation. -/
def agg (x : FVec F S32x200x64x128 .f32) (W : FVec F S128x128 .f32) (b : FVec F S128 .f32) : FVec F S32x200x64x128 .f32 :=
  Host.dotGeneral dot_S32x200x64x64_S32x200x64x128_S32x200x64x128_3_2_2_3_01_01 none (weights x) (linear x W b)
/-- The layer normalisation of an array with scale `g` and shift `be`, and its positive part. -/
def normRelu (a : FVec F S32x200x64x128 .f32) (g be : FVec F S128 .f32) : FVec F S32x200x64x128 .f32 :=
  maximumf
    (addf (mulf (mulf (subf a (wide (mean a)))
        (wide (Host.rsqrt (addf (variance a (constantI S_ 32 0#32)) (col (constant S_ .f32 0x3727C5AC#32))))))
      (feat g)) (feat be))
    (broadcastInDim S32x200x64x128 ![] bcast_S_S32x200x64x128 (constant S_ .f32 0x00000000#32))
/-- The reference's result. -/
def out (x : FVec F S32x200x64x128 .f32) (W : FVec F S128x128 .f32) (b g be : FVec F S128 .f32) : FVec F S32x200x64x128 .f32 :=
  normRelu (agg x W b) g be

end Cert.ReferenceIdeal.RefTerm

end
-- ==== Proof.RefRunRead.lean ====
/-
  The reference program's buffers after each stage of its line, as pure terms of the argument arrays.

  `valA V`, …, `valL V` are the device's contents after the first one, …, eleven stages, run from any
  contents `V`.  For each stage and each buffer that a later stage reads, a lemma gives the buffer's
  contents as the corresponding stage of the composed term: the centred array, the standard deviation,
  the normalised array, the correlation, the exponentials and the weights of the softmax, the
  aggregation of the linear images, its mean and variance, the scaled and shifted normalisation, and at
  the end the positive part, which is the whole term.  The five argument buffers are written by no stage
  and keep the contents they had in `V`.
-/
import proofs.«115721_j65403761983862_2_alg».proof.Proof.RefRunStages
import proofs.«115721_j65403761983862_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer normalisation of `a` with scale `g` and shift `be`, before the positive part. -/
def layerNorm (a : FVec F S32x200x64x128 .f32) (g be : FVec F S128 .f32) : FVec F S32x200x64x128 .f32 :=
  addf (mulf (mulf (subf a (RefTerm.wide (RefTerm.mean a)))
      (RefTerm.wide (Host.rsqrt (addf (RefTerm.variance a (constantI S_ 32 0#32)) (RefTerm.col (constant S_ .f32 0x3727C5AC#32))))))
    (RefTerm.feat g)) (RefTerm.feat be)

/-! ### The contents after each stage -/

def valA (V : Valuation τ sig (Elt F)) : Valuation τ sig (Elt F) := after opsA V
def valB (V : Valuation τ sig (Elt F)) : Valuation τ sig (Elt F) := after opsB (valA V)
def valC (V : Valuation τ sig (Elt F)) : Valuation τ sig (Elt F) := after opsC (valB V)
def valD (V : Valuation τ sig (Elt F)) : Valuation τ sig (Elt F) := after opsD (valC V)
def valE (V : Valuation τ sig (Elt F)) : Valuation τ sig (Elt F) := after opsE (valD V)
def valF (V : Valuation τ sig (Elt F)) : Valuation τ sig (Elt F) := after opsF (valE V)
def valG (V : Valuation τ sig (Elt F)) : Valuation τ sig (Elt F) := after opsG (valF V)
def valI (V : Valuation τ sig (Elt F)) : Valuation τ sig (Elt F) := after opsI (valG V)
def valJ (V : Valuation τ sig (Elt F)) : Valuation τ sig (Elt F) := after opsJ (valI V)
def valK (V : Valuation τ sig (Elt F)) : Valuation τ sig (Elt F) := after opsK (valJ V)
def valL (V : Valuation τ sig (Elt F)) : Valuation τ sig (Elt F) := after opsL (valK V)

/-! ### The arguments are never written -/

section Args
variable (V : Valuation τ sig (Elt F)) {r : Ref sig .tc} (hr : r ∈ argRefs)
include hr

theorem valA_arg : valA V (Proc.devRef .tc r) = V (Proc.devRef .tc r) := keepA V r (argsA r hr)
theorem valB_arg : valB V (Proc.devRef .tc r) = V (Proc.devRef .tc r) := (keepB (valA V) r (argsB r hr)).trans (valA_arg V hr)
theorem valC_arg : valC V (Proc.devRef .tc r) = V (Proc.devRef .tc r) := (keepC (valB V) r (argsC r hr)).trans (valB_arg V hr)
theorem valD_arg : valD V (Proc.devRef .tc r) = V (Proc.devRef .tc r) := (keepD (valC V) r (argsD r hr)).trans (valC_arg V hr)
theorem valE_arg : valE V (Proc.devRef .tc r) = V (Proc.devRef .tc r) := (keepE (valD V) r (argsE r hr)).trans (valD_arg V hr)
theorem valF_arg : valF V (Proc.devRef .tc r) = V (Proc.devRef .tc r) := (keepF (valE V) r (argsF r hr)).trans (valE_arg V hr)
theorem valG_arg : valG V (Proc.devRef .tc r) = V (Proc.devRef .tc r) := (keepG (valF V) r (argsG r hr)).trans (valF_arg V hr)
theorem valI_arg : valI V (Proc.devRef .tc r) = V (Proc.devRef .tc r) := (keepI (valG V) r (argsI r hr)).trans (valG_arg V hr)
theorem valJ_arg : valJ V (Proc.devRef .tc r) = V (Proc.devRef .tc r) := (keepJ (valI V) r (argsJ r hr)).trans (valI_arg V hr)
theorem valK_arg : valK V (Proc.devRef .tc r) = V (Proc.devRef .tc r) := (keepK (valJ V) r (argsK r hr)).trans (valJ_arg V hr)
theorem valL_arg : valL V (Proc.devRef .tc r) = V (Proc.devRef .tc r) := (keepL (valK V) r (argsL r hr)).trans (valK_arg V hr)

end Args

variable (V : Valuation τ sig (Elt F))

/-! ### Stage A: centring -/

theorem valA_v5 : valA V (no_index (Proc.devRef .tc main_v5)) = RefTerm.centered (V (Proc.devRef .tc main_arg0)) := by
  unfold valA
  simp only [opsA]
  after_results_simp <;> rfl

theorem valA_c : valA V (no_index (Proc.devRef .tc main_c)) = constantI S_ 32 1#32 := by
  unfold valA
  simp only [opsA]
  after_results_simp <;> rfl

theorem valA_arg0 : valA V (no_index (Proc.devRef .tc main_arg0)) = (V (Proc.devRef .tc main_arg0)) := valA_arg V (by decide)

/-! ### Stage B: the standard deviation -/

theorem valB_v6 : valB V (no_index (Proc.devRef .tc main_v6))
    = Host.sqrt (RefTerm.variance (V (Proc.devRef .tc main_arg0)) (constantI S_ 32 1#32)) := by
  unfold valB
  rw [opsB_plain]
  simp only [opsB']
  after_results_simp
  simp only [valA_arg0, valA_c] <;> rfl

theorem valB_v5 : valB V (no_index (Proc.devRef .tc main_v5)) = RefTerm.centered (V (Proc.devRef .tc main_arg0)) :=
  (keepB (valA V) main_v5 (by decide)).trans (valA_v5 V)

/-! ### Stage C: the normalised array -/

theorem valC_v10 : valC V (no_index (Proc.devRef .tc main_v10)) = RefTerm.xnorm (V (Proc.devRef .tc main_arg0)) := by
  unfold valC
  simp only [opsC]
  after_results_simp
  simp only [valB_v5, valB_v6] <;> rfl

/-! ### Stage D: the correlation -/

theorem valD_v13 : valD V (no_index (Proc.devRef .tc main_v13)) = RefTerm.corr (V (Proc.devRef .tc main_arg0)) := by
  unfold valD
  simp only [opsD]
  after_results_simp
  simp only [valC_v10] <;> rfl

/-! ### Stage E: the exponentials of the softmax -/

theorem valE_v20 : valE V (no_index (Proc.devRef .tc main_v20)) = RefTerm.expo (V (Proc.devRef .tc main_arg0)) := by
  unfold valE
  simp only [opsE]
  after_results_simp
  simp only [valD_v13] <;> rfl

/-! ### Stage F: the softmax weights -/

theorem valF_v24 : valF V (no_index (Proc.devRef .tc main_v24)) = RefTerm.weights (V (Proc.devRef .tc main_arg0)) := by
  unfold valF
  simp only [opsF]
  after_results_simp
  simp only [valE_v20] <;> rfl

theorem valF_arg0 : valF V (no_index (Proc.devRef .tc main_arg0)) = (V (Proc.devRef .tc main_arg0)) := valF_arg V (by decide)
theorem valF_arg1 : valF V (no_index (Proc.devRef .tc main_arg1)) = (V (Proc.devRef .tc main_arg1)) := valF_arg V (by decide)
theorem valF_arg2 : valF V (no_index (Proc.devRef .tc main_arg2)) = (V (Proc.devRef .tc main_arg2)) := valF_arg V (by decide)

/-! ### Stage G: the linear map and the aggregation -/

theorem valG_v29 : valG V (no_index (Proc.devRef .tc main_v29)) = RefTerm.agg (V (Proc.devRef .tc main_arg0)) (V (Proc.devRef .tc main_arg1)) (V (Proc.devRef .tc main_arg2)) := by
  unfold valG
  simp only [opsG]
  after_results_simp
  simp only [valF_v24, valF_arg0, valF_arg1, valF_arg2] <;> rfl

/-! ### Stage I: the mean of the aggregate -/

theorem valI_v33 : valI V (no_index (Proc.devRef .tc main_v33)) = RefTerm.mean (RefTerm.agg (V (Proc.devRef .tc main_arg0)) (V (Proc.devRef .tc main_arg1)) (V (Proc.devRef .tc main_arg2))) := by
  unfold valI
  simp only [opsI]
  after_results_simp
  simp only [valG_v29] <;> rfl

theorem valI_c_8 : valI V (no_index (Proc.devRef .tc main_c_8)) = constantI S_ 32 0#32 := by
  unfold valI
  simp only [opsI]
  after_results_simp <;> rfl

theorem valI_v29 : valI V (no_index (Proc.devRef .tc main_v29)) = RefTerm.agg (V (Proc.devRef .tc main_arg0)) (V (Proc.devRef .tc main_arg1)) (V (Proc.devRef .tc main_arg2)) :=
  (keepI (valG V) main_v29 (by decide)).trans (valG_v29 V)

/-! ### Stage J: the variance of the aggregate -/

theorem valJ_v34 : valJ V (no_index (Proc.devRef .tc main_v34))
    = RefTerm.variance (RefTerm.agg (V (Proc.devRef .tc main_arg0)) (V (Proc.devRef .tc main_arg1)) (V (Proc.devRef .tc main_arg2))) (constantI S_ 32 0#32) := by
  unfold valJ
  rw [opsJ_plain]
  simp only [opsJ']
  after_results_simp
  simp only [valI_v29, valI_c_8] <;> rfl

theorem valJ_v29 : valJ V (no_index (Proc.devRef .tc main_v29)) = RefTerm.agg (V (Proc.devRef .tc main_arg0)) (V (Proc.devRef .tc main_arg1)) (V (Proc.devRef .tc main_arg2)) :=
  (keepJ (valI V) main_v29 (by decide)).trans (valI_v29 V)

theorem valJ_v33 : valJ V (no_index (Proc.devRef .tc main_v33)) = RefTerm.mean (RefTerm.agg (V (Proc.devRef .tc main_arg0)) (V (Proc.devRef .tc main_arg1)) (V (Proc.devRef .tc main_arg2))) :=
  (keepJ (valI V) main_v33 (by decide)).trans (valI_v33 V)

theorem valJ_arg3 : valJ V (no_index (Proc.devRef .tc main_arg3)) = (V (Proc.devRef .tc main_arg3)) := valJ_arg V (by decide)
theorem valJ_arg4 : valJ V (no_index (Proc.devRef .tc main_arg4)) = (V (Proc.devRef .tc main_arg4)) := valJ_arg V (by decide)

/-! ### Stage K: the scaled and shifted normalisation -/

theorem valK_v47 : valK V (no_index (Proc.devRef .tc main_v47)) = layerNorm (RefTerm.agg (V (Proc.devRef .tc main_arg0)) (V (Proc.devRef .tc main_arg1)) (V (Proc.devRef .tc main_arg2))) (V (Proc.devRef .tc main_arg3)) (V (Proc.devRef .tc main_arg4)) := by
  unfold valK
  simp only [opsK]
  after_results_simp
  simp only [valJ_v29, valJ_v33, valJ_v34, valJ_arg3, valJ_arg4] <;> rfl

/-! ### Stage L: the positive part -/

theorem valL_v48 : valL V (no_index (Proc.devRef .tc main_v48)) = RefTerm.out (V (Proc.devRef .tc main_arg0)) (V (Proc.devRef .tc main_arg1)) (V (Proc.devRef .tc main_arg2)) (V (Proc.devRef .tc main_arg3)) (V (Proc.devRef .tc main_arg4)) := by
  unfold valL
  rw [opsL_plain]
  simp only [opsL']
  after_results_simp
  simp only [valK_v47] <;> rfl

end Cert.ReferenceIdeal.RefRun

end
-- ==== Proof.RefRun.lean ====
/-
  The reference program's run.

  Every weakly fair execution of the reference program terminates; at the end its result buffer holds
  the composed term of the five argument arrays — the layer's stages applied in order: mean and centring,
  the variance and the standard deviation, normalisation, the batched correlation and its softmax, the
  linear map, the weighted aggregation, the layer normalisation and the positive part — and the five
  argument buffers hold what they held at launch.  The program is a straight line of 108 operations
  (`main_eq`), the line is its eleven stages in order (`ops_cut`), and the contents after the stages
  are read off stage by stage (`valL_v48`, `valL_arg`).
-/
import proofs.«115721_j65403761983862_2_alg».proof.Proof.RefRunOps
import proofs.«115721_j65403761983862_2_alg».proof.Proof.RefRunRead
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The line is its stages in order. -/
theorem ops_cut : (ops : List (HloOp τ sig (Elt F)))
    = opsA ++ opsB ++ opsC ++ opsD ++ opsE ++ opsF ++ opsG ++ opsI ++ opsJ ++ opsK ++ opsL := rfl

/-- The contents after the whole line are the contents after the last stage. -/
theorem after_ops (V : Valuation τ sig (Elt F)) : after ops V = valL V := by
  rw [ops_cut]
  simp only [after_app]
  rfl

/-- On every device, for any float values, from any memory with zero counters: every weakly fair
    execution of the program terminates with the result buffer at the composed term of the arguments'
    launch contents and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v48)
          = Cert.ReferenceIdeal.RefTerm.out (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (run_main m ρ)
  refine ⟨(h c main_v48).trans ?_, (h c main_arg0).trans ?_, (h c main_arg1).trans ?_, (h c main_arg2).trans ?_,
    (h c main_arg3).trans ?_, (h c main_arg4).trans ?_⟩
  · rw [after_ops]; exact valL_v48 _
  · rw [after_ops]; exact valL_arg _ (by decide)
  · rw [after_ops]; exact valL_arg _ (by decide)
  · rw [after_ops]; exact valL_arg _ (by decide)
  · rw [after_ops]; exact valL_arg _ (by decide)
  · rw [after_ops]; exact valL_arg _ (by decide)

/-- The same at the ideal values, where a float is an extended real. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
          = Cert.ReferenceIdeal.RefTerm.out (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run_gen m ρ

end Cert.ReferenceIdeal.RefRun

end
-- ==== Proof.RefReadLayout.lean ====
/-
  The layout operations and the reductions of the reference's term, read at one index.

  A broadcast along new or unit axes reads its operand at the coordinates the target index keeps; a
  sum over the last axis, started from the pattern of zero, reads as the finite sum over that axis's
  coordinates; a maximum over the last axis reads as the fold of `max` over them.  Every index is
  written by its coordinates, so that each reading is an equation between extended reals.
-/
import proofs.«115721_j65403761983862_2_alg».proof.Proof.RefTerm
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.ValueIdx

/-! ## Broadcasts -/

/-- A scalar spread over a column reads the scalar. -/
theorem col_apply (s : FVec Ideal S_ .f32) (B : Fin 32) (T : Fin 200) (i : Fin 64) (z : Fin 1) :
    RefTerm.col (F := Ideal) s (ix4 B T i z) = s ix0 := by
  unfold RefTerm.col
  exact broadcastInDim_scalar_apply _ s _

/-- A reduced array given back its unit axis reads the reduced array. -/
theorem keep_apply (v : FVec Ideal S32x200x64 .f32) (B : Fin 32) (T : Fin 200) (i : Fin 64) (z : Fin 1) :
    RefTerm.keep (F := Ideal) v (ix4 B T i z) = v (ix3 B T i) := by
  unfold RefTerm.keep
  exact broadcastInDim_apply _ _ v (ix4 B T i z) (ix3 B T i)
    (fun a => match a with | ⟨0, _⟩ => rfl | ⟨1, _⟩ => rfl | ⟨2, _⟩ => rfl)

/-- A column spread over the features reads the column. -/
theorem wide_apply (v : FVec Ideal S32x200x64x1 .f32) (B : Fin 32) (T : Fin 200) (i : Fin 64) (f : Fin 128) :
    RefTerm.wide (F := Ideal) v (ix4 B T i f) = v (ix4 B T i (0 : Fin 1)) := by
  unfold RefTerm.wide
  exact broadcastInDim_apply _ _ v (ix4 B T i f) (ix4 B T i (0 : Fin 1))
    (fun a => match a with | ⟨0, _⟩ => rfl | ⟨1, _⟩ => rfl | ⟨2, _⟩ => rfl | ⟨3, _⟩ => rfl)

/-- A column spread over the nodes reads the column. -/
theorem wide64_apply (v : FVec Ideal S32x200x64x1 .f32) (B : Fin 32) (T : Fin 200) (i j : Fin 64) :
    RefTerm.wide64 (F := Ideal) v (ix4 B T i j) = v (ix4 B T i (0 : Fin 1)) := by
  unfold RefTerm.wide64
  exact broadcastInDim_apply _ _ v (ix4 B T i j) (ix4 B T i (0 : Fin 1))
    (fun a => match a with | ⟨0, _⟩ => rfl | ⟨1, _⟩ => rfl | ⟨2, _⟩ => rfl | ⟨3, _⟩ => rfl)

/-- A feature vector spread over every node reads the vector at the feature. -/
theorem feat_apply (v : FVec Ideal S128 .f32) (B : Fin 32) (T : Fin 200) (i : Fin 64) (o : Fin 128) :
    RefTerm.feat (F := Ideal) v (ix4 B T i o) = v (ix1 o) := by
  unfold RefTerm.feat
  refine (broadcastInDim_apply _ _ _ (ix4 B T i o) (ix4 (0 : Fin 1) (0 : Fin 1) (0 : Fin 1) o)
    (fun a => match a with | ⟨0, _⟩ => rfl | ⟨1, _⟩ => rfl | ⟨2, _⟩ => rfl | ⟨3, _⟩ => rfl)).trans ?_
  exact broadcastInDim_apply _ _ v (ix4 (0 : Fin 1) (0 : Fin 1) (0 : Fin 1) o) (ix1 o)
    (fun a => match a with | ⟨0, _⟩ => rfl)

/-- A scalar spread over the whole array reads the scalar. -/
theorem splat128_apply (s : FVec Ideal S_ .f32) (j : S32x200x64x128.Idx) :
    broadcastInDim S32x200x64x128 ![] bcast_S_S32x200x64x128 s j = s ix0 :=
  broadcastInDim_scalar_apply _ s _

/-- A scalar spread over the correlation's shape reads the scalar. -/
theorem splat64_apply (s : FVec Ideal S_ .f32) (j : S32x200x64x64.Idx) :
    broadcastInDim S32x200x64x64 ![] bcast_S_S32x200x64x64 s j = s ix0 :=
  broadcastInDim_scalar_apply _ s _

/-- A scalar spread over the reduced shape reads the scalar. -/
theorem splat3_apply (s : FVec Ideal S_ .f32) (j : S32x200x64.Idx) :
    broadcastInDim S32x200x64 ![] bcast_S_S32x200x64 s j = s ix0 :=
  broadcastInDim_scalar_apply _ s _

/-! ## Sums over the last axis -/

/-- The index of the source over a reduced index, with the last coordinate inserted (128 features). -/
theorem lift128 (h : S32x200x64x128.Reduces [3] S32x200x64) (B : Fin 32) (T : Fin 200) (i : Fin 64) (k : Fin 128) :
    h.lift (ix3 B T i) k = ix4 B T i k := by
  funext c
  refine Fin.ext ?_
  match c with
  | ⟨0, _⟩ => rfl
  | ⟨1, _⟩ => rfl
  | ⟨2, _⟩ => rfl
  | ⟨3, _⟩ => rfl

/-- The same for 64 nodes on the last axis. -/
theorem lift64 (h : S32x200x64x64.Reduces [3] S32x200x64) (B : Fin 32) (T : Fin 200) (i : Fin 64) (k : Fin 64) :
    h.lift (ix3 B T i) k = ix4 B T i k := by
  funext c
  refine Fin.ext ?_
  match c with
  | ⟨0, _⟩ => rfl
  | ⟨1, _⟩ => rfl
  | ⟨2, _⟩ => rfl
  | ⟨3, _⟩ => rfl

/-- The host's sum over 128 features from the pattern of zero is the finite sum. -/
theorem reduceAdd128_apply (x : FVec Ideal S32x200x64x128 .f32) (B : Fin 32) (T : Fin 200) (i : Fin 64) :
    Host.reduceAdd (F := Ideal) x (constant (F := Ideal) S_ .f32 0x00000000#32)
        reducesTo_S32x200x64x128_S32x200x64_d3 h_S_ (ix3 B T i)
      = ∑ f : Fin 128, x (ix4 B T i f) := by
  have h : S32x200x64x128.Reduces [3] S32x200x64 := by decide
  unfold Host.reduceAdd
  rw [Ideal.hostReduceAdd_def]
  refine (Ideal.hostReduceAdd_single reducesTo_S32x200x64x128_S32x200x64_d3 h x _ (ix3 B T i)).trans ?_
  show Ideal.ofBits .f32 0x00000000#32 + ∑ k : Fin 128, x (h.lift (ix3 B T i) k) = _
  rw [Ideal.ofBits_zero_f32, zero_add]
  exact Finset.sum_congr rfl fun k _ => congrArg x (lift128 h B T i k)

/-- The host's sum over 64 nodes from the pattern of zero is the finite sum. -/
theorem reduceAdd64_apply (y : FVec Ideal S32x200x64x64 .f32) (B : Fin 32) (T : Fin 200) (i : Fin 64) :
    Host.reduceAdd (F := Ideal) y (constant (F := Ideal) S_ .f32 0x00000000#32)
        reducesTo_S32x200x64x64_S32x200x64_d3 h_S_ (ix3 B T i)
      = ∑ j : Fin 64, y (ix4 B T i j) := by
  have h : S32x200x64x64.Reduces [3] S32x200x64 := by decide
  unfold Host.reduceAdd
  rw [Ideal.hostReduceAdd_def]
  refine (Ideal.hostReduceAdd_single reducesTo_S32x200x64x64_S32x200x64_d3 h y _ (ix3 B T i)).trans ?_
  show Ideal.ofBits .f32 0x00000000#32 + ∑ k : Fin 64, y (h.lift (ix3 B T i) k) = _
  rw [Ideal.ofBits_zero_f32, zero_add]
  exact Finset.sum_congr rfl fun k _ => congrArg y (lift64 h B T i k)

/-- The row sum, kept as a column, is the finite sum over the features. -/
theorem rowSum_apply (x : FVec Ideal S32x200x64x128 .f32) (B : Fin 32) (T : Fin 200) (i : Fin 64) (z : Fin 1) :
    RefTerm.rowSum (F := Ideal) x (ix4 B T i z) = ∑ f : Fin 128, x (ix4 B T i f) := by
  unfold RefTerm.rowSum
  exact (keep_apply _ B T i z).trans (reduceAdd128_apply x B T i)

end Cert.ReferenceIdeal.RefRead

end
-- ==== Proof.RefReadStats.lean ====
/-
  The statistics of the reference's term over the last axis, read at one index.

  For an array `a` of shape [32, 200, 64, 128]: its mean over the 128 features of a node is the sum
  divided by the extended real that the pattern of 128 denotes; the centred array subtracts it; the
  variance divides the sum of squares by 128 minus the correction.  The divisor is evaluated once for
  each correction the program uses (127 and 128); both are positive, so the selection on the sign of
  the divisor always takes the quotient.  Each reading is then restated through the one-window
  functions on the extended reals.
-/
import proofs.«115721_j65403761983862_2_alg».proof.Proof.RefReadLayout
import proofs.«115721_j65403761983862_2_alg».proof.Proof.Window

noncomputable section

namespace Cert.ReferenceIdeal.RefRead

open Cert.ReferenceIdeal Cert.ReferenceIdeal.Gen Idealize.ShloMosaic Idealize.ShloMosaic.ValueIdx

/-! ## The two divisors -/

/-- The pattern of 128 denotes the real 128. -/
theorem ofBits_128 : Ideal.ofBits .f32 0x43000000#32 = ((128 : ℝ) : EReal) := by
  simp [Ideal.ofBits, Ideal.ieee, -EReal.coe_mul]; norm_num

/-- The pattern of 127 denotes the real 127. -/
theorem ofBits_127 : Ideal.ofBits .f32 0x42FE0000#32 = ((127 : ℝ) : EReal) := by
  simp [Ideal.ofBits, Ideal.ieee, -EReal.coe_mul]; norm_num

/-- At correction 1 the divisor is 127. -/
theorem divisor_one : RefTerm.divisor (F := Ideal) (constantI S_ 32 1#32) ix0 = Cert.Window.c127 := by
  show Ideal.ofBits .f32 0x43000000#32 - (((1#32 : BitVec 32).toInt : ℝ) : EReal) = Ideal.ofBits .f32 0x42FE0000#32
  rw [ofBits_128, ofBits_127, show (1#32 : BitVec 32).toInt = 1 from by decide, ← EReal.coe_sub]
  norm_num

/-- At correction 0 the divisor is 128. -/
theorem divisor_zero : RefTerm.divisor (F := Ideal) (constantI S_ 32 0#32) ix0 = Cert.Window.c128 := by
  show Ideal.ofBits .f32 0x43000000#32 - (((0#32 : BitVec 32).toInt : ℝ) : EReal) = Ideal.ofBits .f32 0x43000000#32
  rw [ofBits_128, show (0#32 : BitVec 32).toInt = 0 from by decide, ← EReal.coe_sub]
  norm_num

/-- 127 is positive. -/
theorem c127_pos : (0 : EReal) < Cert.Window.c127 := by
  unfold Cert.Window.c127
  rw [ofBits_127]
  exact_mod_cast (by norm_num : (0 : ℝ) < 127)

/-- 128 is positive. -/
theorem c128_pos : (0 : EReal) < Cert.Window.c128 := by
  unfold Cert.Window.c128
  rw [ofBits_128]
  exact_mod_cast (by norm_num : (0 : ℝ) < 128)

/-- Against the pattern of zero, "greater than" holds of a positive extended real. -/
theorem cmp_ogt_zero (d : Ideal .f32) (hd : (0 : EReal) < d) :
    FloatOps.cmpf (F := Ideal) (φ := .f32) .ogt d (Ideal.ofBits .f32 0x00000000#32) = 1#1 := by
  rw [Ideal.cmpf_def, Ideal.ofBits_zero_f32]
  simp [Ideal.cmp, hd]

/-! ## Mean, centring, variance of any array -/

/-- The host's quotient at an index is the quotient of the extended reals. -/
theorem hostDivf_apply {s : Shape} (a b : FVec Ideal s .f32) (j : s.Idx) :
    Host.divf (F := Ideal) a b j = Ideal.div (a j) (b j) := rfl

/-- The mean of a node's features. -/
theorem mean_apply (a : FVec Ideal S32x200x64x128 .f32) (B : Fin 32) (T : Fin 200) (i : Fin 64) (z : Fin 1) :
    RefTerm.mean (F := Ideal) a (ix4 B T i z) = Cert.Window.mean (fun i f => a (ix4 B T i f)) i := by
  unfold RefTerm.mean
  rw [hostDivf_apply, rowSum_apply, col_apply]
  rfl

/-- The centred features of a node. -/
theorem centered_apply (a : FVec Ideal S32x200x64x128 .f32) (B : Fin 32) (T : Fin 200) (i : Fin 64) (f : Fin 128) :
    RefTerm.centered (F := Ideal) a (ix4 B T i f) = Cert.Window.cen (fun i f => a (ix4 B T i f)) i f := by
  unfold RefTerm.centered
  rw [subf_apply, wide_apply, mean_apply]
  rfl

/-- The variance with a correction whose divisor is positive: the sum of squares over the divisor. -/
theorem variance_apply (a : FVec Ideal S32x200x64x128 .f32) (c : IVec S_ 32)
    (hd : (0 : EReal) < RefTerm.divisor (F := Ideal) c ix0) (B : Fin 32) (T : Fin 200) (i : Fin 64) (z : Fin 1) :
    RefTerm.variance (F := Ideal) a c (ix4 B T i z)
      = Ideal.div (∑ f : Fin 128, Cert.Window.cen (fun i f => a (ix4 B T i f)) i f * Cert.Window.cen (fun i f => a (ix4 B T i f)) i f)
          (RefTerm.divisor (F := Ideal) c ix0) := by
  unfold RefTerm.variance
  rw [select_apply, broadcastInDim_scalar_apply, cmpf_apply, constant_apply, cmp_ogt_zero _ hd, select_one,
    hostDivf_apply, rowSum_apply, col_apply]
  refine congrArg (fun s => Ideal.div s _) (Finset.sum_congr rfl fun f _ => ?_)
  rw [mulf_apply, centered_apply]

/-- The unbiased variance of a node's features. -/
theorem variance_one_apply (a : FVec Ideal S32x200x64x128 .f32) (B : Fin 32) (T : Fin 200) (i : Fin 64) (z : Fin 1) :
    RefTerm.variance (F := Ideal) a (constantI S_ 32 1#32) (ix4 B T i z)
      = Cert.Window.var1 (fun i f => a (ix4 B T i f)) i := by
  rw [variance_apply a _ (by rw [divisor_one]; exact c127_pos), divisor_one]
  rfl

/-- The biased variance of a node's features. -/
theorem variance_zero_apply (a : FVec Ideal S32x200x64x128 .f32) (B : Fin 32) (T : Fin 200) (i : Fin 64) (z : Fin 1) :
    RefTerm.variance (F := Ideal) a (constantI S_ 32 0#32) (ix4 B T i z)
      = Ideal.div (∑ f : Fin 128, Cert.Window.cen (fun i f => a (ix4 B T i f)) i f * Cert.Window.cen (fun i f => a (ix4 B T i f)) i f)
          Cert.Window.c128 := by
  rw [variance_apply a _ (by rw [divisor_zero]; exact c128_pos), divisor_zero]

/-- The normalised features of a node. -/
theorem xnorm_apply (x : FVec Ideal S32x200x64x128 .f32) (B : Fin 32) (T : Fin 200) (i : Fin 64) (f : Fin 128) :
    RefTerm.xnorm (F := Ideal) x (ix4 B T i f) = Cert.Window.xn (fun i f => x (ix4 B T i f)) i f := by
  unfold RefTerm.xnorm
  rw [hostDivf_apply, centered_apply, wide_apply, addf_apply, col_apply, constant_apply]
  show Ideal.div _ (Ideal.sqrt (RefTerm.variance (F := Ideal) x (constantI S_ 32 1#32) (ix4 B T i (0 : Fin 1))) + _) = _
  rw [variance_one_apply]
  rfl

end Cert.ReferenceIdeal.RefRead

end
-- ==== Proof.RefReadDot.lean ====
/-
  The three contractions of the reference's term, read at one index.

  A contraction over one axis, read at an output index, is the finite sum over that axis's coordinate
  of the products of the two operands' entries: the operand indices at an output index and a
  contraction coordinate are computed here, axis by axis, for the correlation of the nodes of a
  window (both operands contract their feature axis), for the linear map (the features against the
  second axis of the weight matrix) and for the weighted aggregation (the nodes).
-/
import proofs.«115721_j65403761983862_2_alg».proof.Proof.RefTerm
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.ValueIdx

/-- The correlation's contraction: both operands in the same window, one node each, the same feature. -/
theorem dotCorr_apply (l : FVec Ideal S32x200x64x128 .f32) (r : FVec Ideal S32x200x64x128 .f32) (B : Fin 32) (T : Fin 200) (i j : Fin 64) :
    Host.dotGeneral (F := Ideal) dot_S32x200x64x128_S32x200x64x128_S32x200x64x64_3_3_2_2_01_01 none l r (ix4 B T i j)
      = ∑ f : Fin 128, l (ix4 B T i f) * r (ix4 B T j f) := by
  show FloatOps.dotGeneral _ none _ l r (ix4 B T i j) = _
  rw [Ideal.dotGeneral_apply,
    ← Equiv.sum_comp (contrEquiv1 dot_S32x200x64x128_S32x200x64x128_S32x200x64x64_3_3_2_2_01_01 128 rfl rfl).symm]
  refine Finset.sum_congr rfl fun f _ => ?_
  have c3 := contrEquiv1_symm_val dot_S32x200x64x128_S32x200x64x128_S32x200x64x64_3_3_2_2_01_01 128 rfl rfl f
  have l3 : dot_S32x200x64x128_S32x200x64x128_S32x200x64x64_3_3_2_2_01_01.lhsIdx (ix4 B T i j)
      ((contrEquiv1 _ 128 rfl rfl).symm f) = ix4 B T i f := by
    funext ax; apply Fin.ext
    match ax with
    | ⟨0, _⟩ => rfl
    | ⟨1, _⟩ => rfl
    | ⟨2, _⟩ => rfl
    | ⟨3, _⟩ => exact c3
  have r3 : dot_S32x200x64x128_S32x200x64x128_S32x200x64x64_3_3_2_2_01_01.rhsIdx (ix4 B T i j)
      ((contrEquiv1 _ 128 rfl rfl).symm f) = ix4 B T j f := by
    funext ax; apply Fin.ext
    match ax with
    | ⟨0, _⟩ => rfl
    | ⟨1, _⟩ => rfl
    | ⟨2, _⟩ => rfl
    | ⟨3, _⟩ => exact c3
  rw [l3, r3]

/-- The linear map's contraction: a node's features against row `o` of the weight matrix. -/
theorem dotLinear_apply (l : FVec Ideal S32x200x64x128 .f32) (r : FVec Ideal S128x128 .f32) (B : Fin 32) (T : Fin 200) (j : Fin 64) (o : Fin 128) :
    Host.dotGeneral (F := Ideal) dot_S32x200x64x128_S128x128_S32x200x64x128_3_1_012_0_n_n none l r (ix4 B T j o)
      = ∑ f : Fin 128, l (ix4 B T j f) * r (ix2 o f) := by
  show FloatOps.dotGeneral _ none _ l r (ix4 B T j o) = _
  rw [Ideal.dotGeneral_apply,
    ← Equiv.sum_comp (contrEquiv1 dot_S32x200x64x128_S128x128_S32x200x64x128_3_1_012_0_n_n 128 rfl rfl).symm]
  refine Finset.sum_congr rfl fun f _ => ?_
  have c3 := contrEquiv1_symm_val dot_S32x200x64x128_S128x128_S32x200x64x128_3_1_012_0_n_n 128 rfl rfl f
  have l3 : dot_S32x200x64x128_S128x128_S32x200x64x128_3_1_012_0_n_n.lhsIdx (ix4 B T j o)
      ((contrEquiv1 _ 128 rfl rfl).symm f) = ix4 B T j f := by
    funext ax; apply Fin.ext
    match ax with
    | ⟨0, _⟩ => rfl
    | ⟨1, _⟩ => rfl
    | ⟨2, _⟩ => rfl
    | ⟨3, _⟩ => exact c3
  have r3 : dot_S32x200x64x128_S128x128_S32x200x64x128_3_1_012_0_n_n.rhsIdx (ix4 B T j o)
      ((contrEquiv1 _ 128 rfl rfl).symm f) = ix2 o f := by
    funext ax; apply Fin.ext
    match ax with
    | ⟨0, _⟩ => rfl
    | ⟨1, _⟩ => exact c3
  rw [l3, r3]

/-- The aggregation's contraction: row `i` of the weights against output `o` of every node of the window. -/
theorem dotAgg_apply (l : FVec Ideal S32x200x64x64 .f32) (r : FVec Ideal S32x200x64x128 .f32) (B : Fin 32) (T : Fin 200) (i : Fin 64) (o : Fin 128) :
    Host.dotGeneral (F := Ideal) dot_S32x200x64x64_S32x200x64x128_S32x200x64x128_3_2_2_3_01_01 none l r (ix4 B T i o)
      = ∑ j : Fin 64, l (ix4 B T i j) * r (ix4 B T j o) := by
  show FloatOps.dotGeneral _ none _ l r (ix4 B T i o) = _
  rw [Ideal.dotGeneral_apply,
    ← Equiv.sum_comp (contrEquiv1 dot_S32x200x64x64_S32x200x64x128_S32x200x64x128_3_2_2_3_01_01 64 rfl rfl).symm]
  refine Finset.sum_congr rfl fun j _ => ?_
  have c3 := contrEquiv1_symm_val dot_S32x200x64x64_S32x200x64x128_S32x200x64x128_3_2_2_3_01_01 64 rfl rfl j
  have l3 : dot_S32x200x64x64_S32x200x64x128_S32x200x64x128_3_2_2_3_01_01.lhsIdx (ix4 B T i o)
      ((contrEquiv1 _ 64 rfl rfl).symm j) = ix4 B T i j := by
    funext ax; apply Fin.ext
    match ax with
    | ⟨0, _⟩ => rfl
    | ⟨1, _⟩ => rfl
    | ⟨2, _⟩ => rfl
    | ⟨3, _⟩ => exact c3
  have r3 : dot_S32x200x64x64_S32x200x64x128_S32x200x64x128_3_2_2_3_01_01.rhsIdx (ix4 B T i o)
      ((contrEquiv1 _ 64 rfl rfl).symm j) = ix4 B T j o := by
    funext ax; apply Fin.ext
    match ax with
    | ⟨0, _⟩ => rfl
    | ⟨1, _⟩ => rfl
    | ⟨2, _⟩ => exact c3
    | ⟨3, _⟩ => rfl
  rw [l3, r3]

end Cert.ReferenceIdeal.RefRead

end
-- ==== Proof.RefReadSoft.lean ====
/-
  The correlation of the nodes of a window and its row-wise softmax, read at one index.

  The correlation of nodes i and j is the sum over the features of the products of their normalised
  features, divided by 128.  The row maximum is the fold of `max` over the 64 nodes started from the
  pattern of -∞; joining it once more with that same pattern changes nothing, since the start value
  of a fold of `max` is already below the fold.  The exponentials subtract the row maximum, and the
  weights divide by the row's sum of exponentials.
-/
import proofs.«115721_j65403761983862_2_alg».proof.Proof.RefReadStats
import proofs.«115721_j65403761983862_2_alg».proof.Proof.RefReadDot
import Idealize.ShloMosaic.PureOps.Reduce

noncomputable section

namespace Cert.ReferenceIdeal.RefRead

open Cert.ReferenceIdeal Cert.ReferenceIdeal.Gen Idealize.ShloMosaic Idealize.ShloMosaic.ValueIdx

/-! ## The maximum over the last axis -/

/-- Joining the start value of a fold of `max` with the fold gives the fold. -/
theorem max_fold_start {ι : Type} [DecidableEq ι] (s : Finset ι) (b : EReal) (f : ι → EReal) :
    max b (s.fold max b f) = s.fold max b f := by
  induction s using Finset.induction_on with
  | empty => simp
  | insert a s ha ih => rw [Finset.fold_insert ha, max_left_comm, ih]

/-- The host's maximum over the 64 nodes is the fold of `max` from the initial value. -/
theorem reduceMax64_apply (y : FVec Ideal S32x200x64x64 .f32) (init : FVec Ideal S_ .f32)
    (B : Fin 32) (T : Fin 200) (i : Fin 64) :
    Host.reduce (FloatOps.maximumf (F := Ideal) (φ := .f32)) y init reducesTo_S32x200x64x64_S32x200x64_d3 h_S_ (ix3 B T i)
      = (Finset.univ : Finset (Fin 64)).fold max (init ix0) (fun j => y (ix4 B T i j)) := by
  have h : S32x200x64x64.Reduces [3] S32x200x64 := by decide
  refine (Host.reduce_eq_fold_single (FloatOps.maximumf (F := Ideal) (φ := .f32)) y init
    reducesTo_S32x200x64x64_S32x200x64_d3 h h_S_ (ix3 B T i)).trans ?_
  have hy : (y ∘ h.lift (ix3 B T i)) = fun j : Fin 64 => y (ix4 B T i j) :=
    funext fun k => congrArg y (lift64 h B T i k)
  rw [hy, eq_ix0 (Shape.Idx.first h_S_)]
  rfl

/-- The row maximum, kept as a column: the fold of `max` over the nodes from -∞. -/
theorem rowMax_apply (y : FVec Ideal S32x200x64x64 .f32) (B : Fin 32) (T : Fin 200) (i : Fin 64) (z : Fin 1) :
    RefTerm.rowMax (F := Ideal) y (ix4 B T i z)
      = (Finset.univ : Finset (Fin 64)).fold max Cert.Window.negInf (fun j => y (ix4 B T i j)) := by
  unfold RefTerm.rowMax
  rw [keep_apply, maximumf_apply, splat3_apply, reduceMax64_apply, constant_apply]
  exact max_fold_start _ _ _

/-! ## Correlation and softmax of a window -/

/-- The correlation of two nodes of a window. -/
theorem corr_apply (x : FVec Ideal S32x200x64x128 .f32) (B : Fin 32) (T : Fin 200) (i j : Fin 64) :
    RefTerm.corr (F := Ideal) x (ix4 B T i j) = Cert.Window.corr (fun i f => x (ix4 B T i f)) i j := by
  unfold RefTerm.corr
  rw [hostDivf_apply, dotCorr_apply, splat64_apply, constant_apply]
  unfold Cert.Window.corr
  refine congrArg (fun s => Ideal.div s _) (Finset.sum_congr rfl fun f _ => ?_)
  rw [xnorm_apply, xnorm_apply]

/-- The row maximum of a window's correlation. -/
theorem rmax_apply (x : FVec Ideal S32x200x64x128 .f32) (B : Fin 32) (T : Fin 200) (i : Fin 64) (z : Fin 1) :
    RefTerm.rowMax (F := Ideal) (RefTerm.corr (F := Ideal) x) (ix4 B T i z)
      = Cert.Window.rmax (fun i f => x (ix4 B T i f)) i := by
  rw [rowMax_apply]
  unfold Cert.Window.rmax
  exact congrArg (fun g : Fin 64 → EReal => (Finset.univ : Finset (Fin 64)).fold max Cert.Window.negInf g)
    (funext fun j => corr_apply x B T i j)

/-- The exponentials of the softmax. -/
theorem expo_apply (x : FVec Ideal S32x200x64x128 .f32) (B : Fin 32) (T : Fin 200) (i j : Fin 64) :
    RefTerm.expo (F := Ideal) x (ix4 B T i j) = Cert.Window.ex (fun i f => x (ix4 B T i f)) i j := by
  unfold RefTerm.expo
  show Ideal.exp (subf (RefTerm.corr (F := Ideal) x) _ (ix4 B T i j)) = _
  rw [subf_apply, wide64_apply, corr_apply, rmax_apply]
  rfl

/-- The softmax weights. -/
theorem weights_apply (x : FVec Ideal S32x200x64x128 .f32) (B : Fin 32) (T : Fin 200) (i j : Fin 64) :
    RefTerm.weights (F := Ideal) x (ix4 B T i j) = Cert.Window.wt (fun i f => x (ix4 B T i f)) i j := by
  unfold RefTerm.weights
  rw [hostDivf_apply, wide64_apply, keep_apply, reduceAdd64_apply, expo_apply]
  unfold Cert.Window.wt
  exact congrArg _ (Finset.sum_congr rfl fun j' _ => expo_apply x B T i j')

end Cert.ReferenceIdeal.RefRead

end
-- ==== Proof.RefReadOut.lean ====
/-
  The linear map, the weighted aggregation, the layer normalisation and the result of the reference's
  term, read at one index; and the result as the one-window function of the window's features.

  The linear image of a node is the sum over the features of feature times weight, plus the bias; the
  aggregation of node i is the sum over the nodes j of the softmax weight (i, j) times the linear
  image of j.  The layer normalisation of any array subtracts the mean over the 128 outputs,
  multiplies by the reciprocal square root of the biased variance plus ε₂, scales, shifts, and takes
  the maximum with zero.  Applied to the aggregation these are the one-window functions
  `mu`, `dev`, `var2` and `out`.
-/
import proofs.«115721_j65403761983862_2_alg».proof.Proof.RefReadSoft

noncomputable section

namespace Cert.ReferenceIdeal.RefRead

open Cert.ReferenceIdeal Cert.ReferenceIdeal.Gen Idealize.ShloMosaic Idealize.ShloMosaic.ValueIdx

/-- The linear image of a node. -/
theorem linear_apply (x : FVec Ideal S32x200x64x128 .f32) (W : FVec Ideal S128x128 .f32) (b : FVec Ideal S128 .f32)
    (B : Fin 32) (T : Fin 200) (j : Fin 64) (o : Fin 128) :
    RefTerm.linear (F := Ideal) x W b (ix4 B T j o)
      = Cert.Window.lin (fun i f => x (ix4 B T i f)) (fun o f => W (ix2 o f)) (fun o => b (ix1 o)) j o := by
  unfold RefTerm.linear
  rw [addf_apply, dotLinear_apply, feat_apply]
  rfl

/-- The weighted aggregation of a node. -/
theorem agg_apply (x : FVec Ideal S32x200x64x128 .f32) (W : FVec Ideal S128x128 .f32) (b : FVec Ideal S128 .f32)
    (B : Fin 32) (T : Fin 200) (i : Fin 64) (o : Fin 128) :
    RefTerm.agg (F := Ideal) x W b (ix4 B T i o)
      = Cert.Window.agg (fun i f => x (ix4 B T i f)) (fun o f => W (ix2 o f)) (fun o => b (ix1 o)) i o := by
  unfold RefTerm.agg
  rw [dotAgg_apply]
  unfold Cert.Window.agg
  exact Finset.sum_congr rfl fun j _ => by rw [weights_apply, linear_apply]

/-- The host's reciprocal square root at an index is the extended reals'. -/
theorem hostRsqrt_apply {s : Shape} (a : FVec Ideal s .f32) (j : s.Idx) :
    Host.rsqrt (F := Ideal) a j = Ideal.rsqrt (a j) := rfl

/-- The layer normalisation and positive part of any array. -/
theorem normRelu_apply (a : FVec Ideal S32x200x64x128 .f32) (g be : FVec Ideal S128 .f32)
    (B : Fin 32) (T : Fin 200) (i : Fin 64) (o : Fin 128) :
    RefTerm.normRelu (F := Ideal) a g be (ix4 B T i o)
      = max (Cert.Window.cen (fun i f => a (ix4 B T i f)) i o
          * Ideal.rsqrt (Ideal.div (∑ f : Fin 128, Cert.Window.cen (fun i f => a (ix4 B T i f)) i f
              * Cert.Window.cen (fun i f => a (ix4 B T i f)) i f) Cert.Window.c128 + Cert.Window.epsLn)
          * g (ix1 o) + be (ix1 o)) 0 := by
  unfold RefTerm.normRelu
  rw [maximumf_apply, addf_apply, mulf_apply, mulf_apply, splat128_apply, constant_apply, Ideal.ofBits_zero_f32,
    feat_apply, feat_apply, wide_apply, hostRsqrt_apply, addf_apply, variance_zero_apply, col_apply, constant_apply]
  have hc := centered_apply a B T i o
  unfold RefTerm.centered at hc
  rw [hc]
  rfl

/-- THE REFERENCE'S RESULT AT AN INDEX: the one-window function of the window's features. -/
theorem out_apply (x : FVec Ideal S32x200x64x128 .f32) (W : FVec Ideal S128x128 .f32) (b g be : FVec Ideal S128 .f32)
    (B : Fin 32) (T : Fin 200) (i : Fin 64) (o : Fin 128) :
    Cert.ReferenceIdeal.RefTerm.out (F := Ideal) x W b g be (ix4 B T i o)
      = Cert.Window.out (fun i f => x (ix4 B T i f)) (fun o f => W (ix2 o f)) (fun o => b (ix1 o)) (fun o => g (ix1 o)) (fun o => be (ix1 o)) i o := by
  unfold RefTerm.out
  rw [normRelu_apply]
  have hagg : (fun (i : Fin 64) (f : Fin 128) => RefTerm.agg (F := Ideal) x W b (ix4 B T i f))
      = Cert.Window.agg (fun i f => x (ix4 B T i f)) (fun o f => W (ix2 o f)) (fun o => b (ix1 o)) :=
    funext fun i => funext fun f => agg_apply x W b B T i f
  rw [hagg]
  rfl

end Cert.ReferenceIdeal.RefRead

end
-- ==== Proof.lean ====
/-
  The certificate's five claims.

  The three frames: each kernel program's frame is the generated frame of its one region; the reference has
  no region, and its frame is its run with the result dropped.  The idealization rewrote nothing, so there
  is nothing to preserve.  The algebraic claim: the idealized kernel's result array, read at window `(B, T)`,
  node `i`, output `o`, is the window function (normalise the nodes, correlate them, softmax the
  correlations, aggregate the linear images, layer-normalise, take the positive part) of window `(B, T)` of
  the input; the reference's result read at the same index is the same function of the same window, with the
  same weights, bias, scale and shift; the two runs start from memories that agree on the arguments.
-/
import proofs.«115721_j65403761983862_2_alg».proof.Defs
import proofs.«115721_j65403761983862_2_alg».proof.Proof.Gen.Kernel.Frame
import proofs.«115721_j65403761983862_2_alg».proof.Proof.Gen.KernelIdeal.Frame
import proofs.«115721_j65403761983862_2_alg».proof.Proof.Gen.ReferenceIdeal
import proofs.«115721_j65403761983862_2_alg».proof.Proof.Gen.Pre_finite_inputs
import proofs.«115721_j65403761983862_2_alg».proof.Proof.KerValueB
import proofs.«115721_j65403761983862_2_alg».proof.Proof.RefRun
import proofs.«115721_j65403761983862_2_alg».proof.Proof.RefReadOut

noncomputable section

open Idealize.ShloMosaic Idealize.ShloMosaic.ValueIdx

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end, window by window, node by node, output by output, at the one window function of
    the same window of the input and the same weights, bias, scale and shift. -/
theorem algebraic : Cert.algebraic_KernelIdeal_ReferenceIdeal := by
  intro m ρ m' ρ' _ hagree
  refine ⟨fun c => Cert.KernelIdeal.KerValue.KOut m c, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  funext j
  obtain ⟨B, T, i, o, rfl⟩ : ∃ (B : Fin 32) (T : Fin 200) (i : Fin 64) (o : Fin 128), j = ix4 B T i o :=
    ⟨j 0, j 1, j 2, j 3, eq_ix4 j⟩
  rw [(hagree c).1, (hagree c).2.1, (hagree c).2.2.1, (hagree c).2.2.2.1, (hagree c).2.2.2.2]
  exact (Cert.ReferenceIdeal.RefRead.out_apply _ _ _ _ _ B T i o).trans (Cert.KernelIdeal.KerValue.KOut_apply m c B T i o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
